-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x3200000 : Shape := ⟨2, ![2, 3200000]⟩
abbrev S1x64 : Shape := ⟨2, ![1, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x1 .f32) (main_arg1 : IVec S2x3200000 32) (main_arg2 : FVec F S1x64 .f32) (main_arg3 : FVec F S64 .f32) (main_arg4 : FVec F S64x64 .f32) (main_arg5 : FVec F S64 .f32) (main_arg6 : FVec F S64x1 .f32) (main_arg7 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x64 .f32 := Host.absf main_arg2
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x1 : Shape := ⟨2, ![100000, 1]⟩
abbrev S2x3200000 : Shape := ⟨2, ![2, 3200000]⟩
abbrev S1x64 : Shape := ⟨2, ![1, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S1x1 : Shape := ⟨2, ![1, 1]⟩
abbrev S100000x64 : Shape := ⟨2, ![100000, 64]⟩
abbrev S10000x1 : Shape := ⟨2, ![10000, 1]⟩
abbrev S10000x64 : Shape := ⟨2, ![10000, 64]⟩
abbrev S3300000x64 : Shape := ⟨2, ![3300000, 64]⟩

abbrev nBuf : Space → Nat
  | .hbm => 103
  | .vmem => 22
  | .smem => 0
  | _ => 0

abbrev bufTy : (tb : Table) → Fin (tcTables nBuf tb) → BufTy
  | .hbm, ⟨0, _⟩ => ⟨S100000x1, .f32⟩
  | .hbm, ⟨1, _⟩ => ⟨S2x3200000, .i32⟩
  | .hbm, ⟨2, _⟩ => ⟨S1x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S1x64, .f32⟩
  | .hbm, ⟨49, _⟩ => ⟨S1x64, .f32⟩
  | .hbm, ⟨50, _⟩ => ⟨S1x1, .f32⟩
  | .hbm, ⟨51, _⟩ => ⟨S100000x64, .f32⟩
  | .hbm, ⟨52, _⟩ => ⟨S_, .i32⟩
  | .hbm, ⟨53, _⟩ => ⟨S3300000, .i32⟩
  | .hbm, ⟨54, _⟩ => ⟨S3300000, .i1⟩
  | .hbm, ⟨55, _⟩ => ⟨S_, .i32⟩
  | .hbm, ⟨56, _⟩ => ⟨S3300000, .i32⟩
  | .hbm, ⟨57, _⟩ => ⟨S3300000, .i32⟩
  | .hbm, ⟨58, _⟩ => ⟨S3300000, .i32⟩
  | .hbm, ⟨59, _⟩ => ⟨S3300000x1, .i32⟩
  | .hbm, ⟨60, _⟩ => ⟨S3300000x64, .f32⟩
  | .hbm, ⟨61, _⟩ => ⟨S3300000x1, .f32⟩
  | .hbm, ⟨62, _⟩ => ⟨S3300000x64, .f32⟩
  | .hbm, ⟨63, _⟩ => ⟨S3300000x64, .f32⟩
  | .hbm, ⟨64, _⟩ => ⟨S_, .f32⟩
  | .hbm, ⟨65, _⟩ => ⟨S100000x64, .f32⟩
  | .hbm, ⟨66, _⟩ => ⟨S3300000x1, .i32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x64, .f32⟩
  | .hbm, ⟨78, _⟩ => ⟨S3300000x1, .f32⟩
  | .hbm, ⟨79, _⟩ => ⟨S3300000x64, .f32⟩
  | .hbm, ⟨80, _⟩ => ⟨S3300000x64, .f32⟩
  | .hbm, ⟨81, _⟩ => ⟨S_, .f32⟩
  | .hbm, ⟨82, _⟩ => ⟨S100000x64, .f32⟩
  | .hbm, ⟨83, _⟩ => ⟨S3300000x1, .i32⟩
  | .hbm, ⟨84, _⟩ => ⟨S100000x64, .f32⟩
  | .hbm, ⟨85, _⟩ => ⟨S100000x1, .f32⟩
  | .hbm, ⟨86, _⟩ => ⟨S_, .i32⟩
  | .hbm, ⟨87, _⟩ => ⟨S3300000, .i32⟩
  | .hbm, ⟨88, _⟩ => ⟨S3300000, .i1⟩
  | .hbm, ⟨89, _⟩ => ⟨S_, .i32⟩
  | .hbm, ⟨90, _⟩ => ⟨S3300000, .i32⟩
  | .hbm, ⟨91, _⟩ => ⟨S3300000, .i32⟩
  | .hbm, ⟨92, _⟩ => ⟨S3300000, .i32⟩
  | .hbm, ⟨93, _⟩ => ⟨S3300000x1, .i32⟩
  | .hbm, ⟨94, _⟩ => ⟨S3300000x1, .f32⟩
  | .hbm, ⟨95, _⟩ => ⟨S3300000x1, .f32⟩
  | .hbm, ⟨96, _⟩ => ⟨S3300000x1, .f32⟩
  | .hbm, ⟨97, _⟩ => ⟨S_, .f32⟩
  | .hbm, ⟨98, _⟩ => ⟨S100000x1, .f32⟩
  | .hbm, ⟨99, _⟩ => ⟨S3300000x1, .i32⟩
  | .hbm, ⟨100, _⟩ => ⟨S100000x1, .f32⟩
  | .hbm, ⟨101, _⟩ => ⟨S100000x1, .f32⟩
  | .hbm, ⟨102, _⟩ => ⟨S100000, .f32⟩
  | .local _ .vmem, ⟨0, _⟩ => ⟨S10000x1, .f32⟩
  | .local _ .vmem, ⟨1, _⟩ => ⟨S10000x1, .f32⟩
  | .local _ .vmem, ⟨2, _⟩ => ⟨S1x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x1, .f32⟩
  | .local _ .vmem, ⟨15, _⟩ => ⟨S10000x1, .f32⟩
  | .local _ .vmem, ⟨16, _⟩ => ⟨S10000x1, .f32⟩
  | .local _ .vmem, ⟨17, _⟩ => ⟨S10000x1, .f32⟩
  | .local _ .vmem, ⟨18, _⟩ => ⟨S10000x1, .f32⟩
  | .local _ .vmem, ⟨19, _⟩ => ⟨S1x1, .f32⟩
  | .local _ .vmem, ⟨20, _⟩ => ⟨S10000x1, .f32⟩
  | .local _ .vmem, ⟨21, _⟩ => ⟨S10000x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_12 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S64_S1x64 : S64.ShapeCasts S1x64
  shapeCasts_S1_S1x1 : S1.ShapeCasts S1x1
  inb_S10000x1_S10000x1_0_0 : ∀ a, (![0, 0] : Fin 2 → Nat) a + S10000x1.size a ≤ S10000x1.size a
  h_S10000x1 : 0 < S10000x1.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S10000x64_S10000x64 : S10000x64.ShapeCasts S10000x64
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  bcast_S_S100000x1 : S_.BroadcastsInDim S100000x1 (![] : Fin 0 → Fin S100000x1.rank)
  shapeCasts_S10000x1_S10000x1 : S10000x1.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  shapeCasts_S100000x1_S100000 : S100000x1.ShapeCasts S100000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x1_S1x64_S10000x64_1_0_0_1_n_n_wf : DotDims.WF S10000x1 S1x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .f32 = 32 ∨ (Rect.block (s := S100000x1) S10000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x1.size a ≤ S100000x1.size a
  hwx2_3 : ∀ i : grid2.Coords, EltTy.bits .f32 = 32 ∨ (Rect.block (s := S100000x1) S10000x1.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x1.size a ≤ S100000x1.size a
  hwx3_0 : ∀ i : grid3.Coords, EltTy.bits .f32 = 32 ∨ (Rect.block (s := S100000x1) S10000x1.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1.size a ≤ S1x1.size a
  hwx3_1 : ∀ i : grid3.Coords, EltTy.bits .f32 = 32 ∨ (Rect.block (s := S1x1) S1x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x1_S1x64_S10000x64_1_0_0_1_n_n : DotDims S10000x1 S1x64 S10000x64 where
  lhsContracting := [1]
  rhsContracting := [0]
  lhsNonContracting := [0]
  rhsNonContracting := [1]
  lhsBatch := []
  rhsBatch := []
  wf := dot_S10000x1_S1x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S10000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S10000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v32) S1x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v74) S10000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x1 : Shape := ⟨2, ![100000, 1]⟩
abbrev S2x3200000 : Shape := ⟨2, ![2, 3200000]⟩
abbrev S1x64 : Shape := ⟨2, ![1, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x1 : Shape := ⟨2, ![1, 1]⟩

abbrev nBuf : Space → Nat
  | .hbm => 122
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S2x3200000, .i32⟩
  | .hbm, ⟨2, _⟩ => ⟨S1x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x64, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x64, .f32⟩
  | .hbm, ⟨58, _⟩ => ⟨S3300000x1, .f32⟩
  | .hbm, ⟨59, _⟩ => ⟨S3300000x64, .f32⟩
  | .hbm, ⟨60, _⟩ => ⟨S3300000x64, .f32⟩
  | .hbm, ⟨61, _⟩ => ⟨S_, .f32⟩
  | .hbm, ⟨62, _⟩ => ⟨S100000x64, .f32⟩
  | .hbm, ⟨63, _⟩ => ⟨S3300000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S_, .i32⟩
  | .hbm, ⟨73, _⟩ => ⟨S3300000, .i32⟩
  | .hbm, ⟨74, _⟩ => ⟨S3300000, .i1⟩
  | .hbm, ⟨75, _⟩ => ⟨S_, .i32⟩
  | .hbm, ⟨76, _⟩ => ⟨S3300000, .i32⟩
  | .hbm, ⟨77, _⟩ => ⟨S3300000, .i32⟩
  | .hbm, ⟨78, _⟩ => ⟨S3300000, .i32⟩
  | .hbm, ⟨79, _⟩ => ⟨S3300000x1, .i32⟩
  | .hbm, ⟨80, _⟩ => ⟨S3300000x64, .f32⟩
  | .hbm, ⟨81, _⟩ => ⟨S3300000x1, .f32⟩
  | .hbm, ⟨82, _⟩ => ⟨S3300000x64, .f32⟩
  | .hbm, ⟨83, _⟩ => ⟨S3300000x64, .f32⟩
  | .hbm, ⟨84, _⟩ => ⟨S_, .f32⟩
  | .hbm, ⟨85, _⟩ => ⟨S100000x64, .f32⟩
  | .hbm, ⟨86, _⟩ => ⟨S3300000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S100000x64, .f32⟩
  | .hbm, ⟨93, _⟩ => ⟨S100000x64, .f32⟩
  | .hbm, ⟨94, _⟩ => ⟨S100000x1, .f32⟩
  | .hbm, ⟨95, _⟩ => ⟨S_, .i32⟩
  | .hbm, ⟨96, _⟩ => ⟨S3300000, .i32⟩
  | .hbm, ⟨97, _⟩ => ⟨S3300000, .i1⟩
  | .hbm, ⟨98, _⟩ => ⟨S_, .i32⟩
  | .hbm, ⟨99, _⟩ => ⟨S3300000, .i32⟩
  | .hbm, ⟨100, _⟩ => ⟨S3300000, .i32⟩
  | .hbm, ⟨101, _⟩ => ⟨S3300000, .i32⟩
  | .hbm, ⟨102, _⟩ => ⟨S3300000x1, .i32⟩
  | .hbm, ⟨103, _⟩ => ⟨S3300000x1, .f32⟩
  | .hbm, ⟨104, _⟩ => ⟨S3300000x1, .f32⟩
  | .hbm, ⟨105, _⟩ => ⟨S3300000x1, .f32⟩
  | .hbm, ⟨106, _⟩ => ⟨S_, .f32⟩
  | .hbm, ⟨107, _⟩ => ⟨S100000x1, .f32⟩
  | .hbm, ⟨108, _⟩ => ⟨S3300000x1, .i32⟩
  | .hbm, ⟨109, _⟩ => ⟨S100000x1, .f32⟩
  | .hbm, ⟨110, _⟩ => ⟨S1x1, .f32⟩
  | .hbm, ⟨111, _⟩ => ⟨S100000x1, .f32⟩
  | .hbm, ⟨112, _⟩ => ⟨S100000x1, .f32⟩
  | .hbm, ⟨113, _⟩ => ⟨S100000x1, .f32⟩
  | .hbm, ⟨114, _⟩ => ⟨S100000x1, .f32⟩
  | .hbm, ⟨115, _⟩ => ⟨S_, .f32⟩
  | .hbm, ⟨116, _⟩ => ⟨S100000x1, .f32⟩
  | .hbm, ⟨117, _⟩ => ⟨S100000x1, .f32⟩
  | .hbm, ⟨118, _⟩ => ⟨S_, .f32⟩
  | .hbm, ⟨119, _⟩ => ⟨S100000x1, .f32⟩
  | .hbm, ⟨120, _⟩ => ⟨S100000x1, .f32⟩
  | .hbm, ⟨121, _⟩ => ⟨S100000, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_14 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_15 : Ref sig .tc := ⟨.hbm, 115, rfl⟩
abbrev main_v84 : Ref sig .tc := ⟨.hbm, 116, rfl⟩
abbrev main_v85 : Ref sig .tc := ⟨.hbm, 117, rfl⟩
abbrev main_cst_16 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x1_S1x64_S100000x64_1_0_0_1_n_n_wf : DotDims.WF S100000x1 S1x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x1_S1x64_S100000x64_1_0_0_1_n_n : DotDims S100000x1 S1x64 S100000x64 where
  lhsContracting := [1]
  rhsContracting := [0]
  lhsNonContracting := [0]
  rhsNonContracting := [1]
  lhsBatch := []
  rhsBatch := []
  wf := dot_S100000x1_S1x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.KRun.lean ====
/-
  The idealized kernel's run with its result named.

  The program is a chain of host stretches and four pipelined regions; the buffer contents at every boundary of that
  chain are a fold from the launch memory, ending at the last boundary's contents. Every weakly fair execution
  terminates with each unscoped buffer at that last boundary's contents: read at the arguments this is the frame,
  and read at the result buffer it says that the result is the fold's value there. What that value is, as a function
  of the arguments, is worked out in the other modules.
-/
import proofs.«117944_j7052336300283_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents and
    the argument arrays as launched. -/
theorem run_named : θ_run defs (onTc (τ := τ) (main (F := F))) ⟨m, fun _ => 0, ρ⟩ (fun r => ∀ c : Dev nD,
      r.2.mem ((c.tc : Thread nD τ).loc main_v75) = W11 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v75 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.Named

end
-- ==== Proof.Layers.lean ====
/-
  The dense part of one graph-convolution layer, as a function of whole arrays.

  Between two neighbourhood aggregations the network applies, to every node's row, a bias, a rectifier and a matrix
  product: `lin1 a b w = max (a + b, 0) · w` over 64 features into 64, `lin2` the same into one feature, and the
  first layer's product of the one input feature with its weight row is the stage `val_main_v30` itself. After the last
  aggregation `readout a b = 1 / (1 + exp (-(a + b)))`. They are written over the reference program's own
  stages, so that each stage of the reference's run that ends a layer IS a layer function of the aggregation before it
  (`v48_eq`, `v66_eq`, `v87_eq`, by unfolding). The idealized kernel computes the same functions block by block.
-/
import proofs.«117944_j7052336300283_1_alg».proof.Proof.RefRead

noncomputable section

namespace Cert.Layers

open Cert.ReferenceIdeal Cert.ReferenceIdeal.Gen Cert.ReferenceIdeal.ReadP Idealize.ShloMosaic Idealize.ShloMosaic.TcCoe

variable {F : FTy → Type} [FloatOps F]

/-- Bias, rectifier, product with a 64×64 weight: the second layer's dense part, of the aggregated rows `a`. -/
def lin1 (a : (⟨S100000x64, .f32⟩ : BufTy).Contents (Elt F)) (b : (⟨S64, .f32⟩ : BufTy).Contents (Elt F))
    (w : (⟨S64x64, .f32⟩ : BufTy).Contents (Elt F)) : (⟨S100000x64, .f32⟩ : BufTy).Contents (Elt F) :=
  Host.dotGeneral dot_S100000x64_S64x64_S100000x64_1_0_0_1_n_n none
    (maximumf (addf a (val_main_v45 (F := F) b)) (val_main_call1_v0 (F := F))) w

/-- Bias, rectifier, product with a 64×1 weight: the third layer's dense part. -/
def lin2 (a : (⟨S100000x64, .f32⟩ : BufTy).Contents (Elt F)) (b : (⟨S64, .f32⟩ : BufTy).Contents (Elt F))
    (w : (⟨S64x1, .f32⟩ : BufTy).Contents (Elt F)) : (⟨S100000x1, .f32⟩ : BufTy).Contents (Elt F) :=
  Host.dotGeneral dot_S100000x64_S64x1_S100000x1_1_0_0_1_n_n none
    (maximumf (addf a (val_main_v63 (F := F) b)) (val_main_call2_v0 (F := F))) w

/-- Bias and logistic function, spelt as the quotient `1 / (1 + exp (-z))`. -/
def readout (a : (⟨S100000x1, .f32⟩ : BufTy).Contents (Elt F)) (b : (⟨S1, .f32⟩ : BufTy).Contents (Elt F)) :
    (⟨S100000x1, .f32⟩ : BufTy).Contents (Elt F) :=
  Host.divf (val_main_v86 (F := F))
    (addf (val_main_v84 (F := F)) (Host.exp (Host.negf (addf a (val_main_v80 (F := F) b)))))

variable (x0 : (⟨S100000x1, .f32⟩ : BufTy).Contents (Elt F)) (x1 : (⟨S2x3200000, .i32⟩ : BufTy).Contents (Elt F))
  (x2 : (⟨S1x64, .f32⟩ : BufTy).Contents (Elt F)) (x3 : (⟨S64, .f32⟩ : BufTy).Contents (Elt F))
  (x4 : (⟨S64x64, .f32⟩ : BufTy).Contents (Elt F)) (x5 : (⟨S64, .f32⟩ : BufTy).Contents (Elt F))
  (x6 : (⟨S64x1, .f32⟩ : BufTy).Contents (Elt F)) (x7 : (⟨S1, .f32⟩ : BufTy).Contents (Elt F))

/-- The reference's second product is the second layer's dense part of its first aggregation. -/
theorem v48_eq : val_main_v48 (F := F) x0 x1 x2 x3 x4 = lin1 (val_main_v43 (F := F) x0 x1 x2) x3 x4 := rfl

/-- The reference's third product is the third layer's dense part of its second aggregation. -/
theorem v66_eq : val_main_v66 (F := F) x0 x1 x2 x3 x4 x5 x6 = lin2 (val_main_v61 (F := F) x0 x1 x2 x3 x4) x5 x6 := rfl

/-- The reference's last quotient is the readout of its third aggregation. -/
theorem v87_eq : val_main_v87 (F := F) x0 x1 x2 x3 x4 x5 x6 x7 = readout (val_main_v78 (F := F) x0 x1 x2 x3 x4 x5 x6) x7 := rfl

end Cert.Layers

end
-- ==== Proof.LibCat.lean ====
/-
  Reading a concatenation of two or of three buffers back from a run of host operations: the result holds the
  operation's function of each operand's contents at that operand's own reference, so that the operands' contents can
  in turn be read back. (The family of operand references is literal; under the operation's binder it is not, and the
  contents of "the k-th operand" could not be rewritten further.)
-/
import Idealize.ShloMosaic.Lib.StableHlo.Run

noncomputable section

namespace Cert.Lib

open Idealize.ShloMosaic Idealize.ShloMosaic.StableHlo Idealize.SL.Sem

variable {τ : Topo} {sig : RefSig} {Val : EltTy → Type}

/-- A two-operand concatenation's result, each operand's contents at its own reference. -/
theorem nary2_result' {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (no_index (Proc.devRef .tc y))
      = f (Fin.cons (F (Proc.devRef .tc x)) (Fin.cons (F (Proc.devRef .tc a)) (fun i => i.elim0))) := by
  rw [nary_result]; congr 1; funext k; fin_cases k <;> rfl

/-- A three-operand concatenation's result, each operand's contents at its own reference. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Contents carried to a typed reference's buffer type and back are the contents. -/
theorem ofBuf_toBuf {T : BufTy} (x : TRef sig T) (v : T.Contents Val) : x.ofBuf (x.toBuf v) = v := by
  obtain ⟨r, h, h2, h3⟩ := x
  subst h
  rfl
/-- Contents carried from a typed reference's buffer type and back are the contents. -/
theorem toBuf_ofBuf {T : BufTy} (x : TRef sig T) (v : x.ref.ty.Contents Val) : x.toBuf (x.ofBuf v) = v := by
  obtain ⟨r, h, h2, h3⟩ := x
  subst h
  rfl

/-- Folding a list of host operations cut in two: first the head part, then the tail part from what it leaves. -/
theorem after_append (l1 l2 : List (HloOp τ sig Val)) (V : Valuation τ sig Val) :
    after (l1 ++ l2) V = after l2 (after l1 V) := by
  induction l1 generalizing V with
  | nil => rfl
  | cons op l ih => exact ih (op.result V)

/-- The same two facts in rewriting form. -/
theorem nary2_result {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (Proc.devRef .tc y)
      = f (Fin.cons (F (Proc.devRef .tc x)) (Fin.cons (F (Proc.devRef .tc a)) (fun i => i.elim0))) :=
  nary2_result' f hxs hy F
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) :=
  nary3_result' f hxs hy F

end Cert.Lib

/-- The results of a literal list of host operations by one simp pass, two- and three-operand concatenations included. -/
macro "after_results_cat" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.Lib.nary2_result', Cert.Lib.nary3_result', Idealize.ShloMosaic.StableHlo.nary4_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- Goes on reading inside a concatenation's operands, one rewrite per operation (the one-pass form does not enter them). -/
macro "finish_results_rw" : tactic =>
  `(tactic| (repeat (first
      | rw [Idealize.ShloMosaic.StableHlo.nullary_result] | rw [Idealize.ShloMosaic.StableHlo.unary_result] | rw [Idealize.ShloMosaic.StableHlo.binary_result]
      | rw [Idealize.ShloMosaic.StableHlo.ternary_result] | rw [Idealize.ShloMosaic.StableHlo.quaternary_result] | rw [Idealize.ShloMosaic.StableHlo.reshape_result]
      | rw [Cert.Lib.nary2_result] | rw [Cert.Lib.nary3_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.quaternary_result_ne]; rotate_left; decide)
      | (rw [Idealize.ShloMosaic.StableHlo.reshape_result_ne]; rotate_left; decide)
      | (rw [Idealize.ShloMosaic.StableHlo.nary_result_ne]; rotate_left; decide))))

end
-- ==== Proof.Stretch.lean ====
/-
  The host stretches of the idealized kernel, read against the reference's stages.

  Between its pipelined regions the kernel runs on the host exactly the operations the reference runs there: the edge
  lists with self loops appended, the degree by a scatter-add of ones, the symmetric normalisation
  `rsqrt deg[row] · rsqrt deg[col]`, and per layer a gather of rows, the scaling by the normalisation and the scatter-add
  into the target rows. So from buffer contents that hold the reference's stages at the buffers a stretch reads, the
  stretch leaves the reference's next aggregation stage at the buffer it computes: both sides are the same
  composition of the same operations, for every float instance. A buffer a stretch does not write keeps its contents.
-/
import proofs.«117944_j7052336300283_1_alg».proof.Proof.Gen.KernelIdeal.Launch
import proofs.«117944_j7052336300283_1_alg».proof.Proof.RefRead
import proofs.«117944_j7052336300283_1_alg».proof.Proof.LibCat
import Idealize.ShloMosaic.Lib.StableHlo.Run

set_option maxRecDepth 16384

noncomputable section

namespace Cert.KernelIdeal.Stretch

open Cert.KernelIdeal Cert.KernelIdeal.Gen Idealize.ShloMosaic Idealize.ShloMosaic.TcCoe Idealize.SL.Sem
open Cert.ReferenceIdeal.ReadP (val_main_v3 val_main_v6 val_main_v12 val_main_v13 val_main_cst_2 val_main_v14 val_main_v29
  val_main_v30 val_main_v43 val_main_v48 val_main_v61 val_main_v66 val_main_v78 val_main_v87 val_main_v88)

variable {F : FTy → Type} [FloatOps F]

/-! ## What each stretch writes, and what it therefore keeps -/

/-- The references the stretch `hostOps0` writes. -/
abbrev pre0_W : List (Ref sig .tc) := [main_v0, main_v1, main_v2, main_v3, main_v4, main_v5, main_v6, main_cst, main_v7, main_cst_0, main_v8, main_v9, main_v10, main_cst_1, main_v11, main_v12, main_v13, main_cst_2]
theorem pre0_writes : (hostOps0 : List (HloOp τ sig (Elt F))).Forall fun op => op.writes ⊆ (pre0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write keeps its contents. -/
theorem pre0_keep (W : Valuation τ sig (Elt F)) (r : Ref sig .tc) (h : r ∉ pre0_W) :
    StableHlo.after hostOps0 W (Proc.devRef .tc r) = W (Proc.devRef .tc r) :=
  StableHlo.after_of_writes_sub hostOps0 W pre0_writes h

/-- The references the stretch `hostOps0_1` writes. -/
abbrev pre1_W : List (Ref sig .tc) := [main_call0_v0, main_call0_v1, main_v14]
theorem pre1_writes : (hostOps0_1 : List (HloOp τ sig (Elt F))).Forall fun op => op.writes ⊆ (pre1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write keeps its contents. -/
theorem pre1_keep (W : Valuation τ sig (Elt F)) (r : Ref sig .tc) (h : r ∉ pre1_W) :
    StableHlo.after hostOps0_1 W (Proc.devRef .tc r) = W (Proc.devRef .tc r) :=
  StableHlo.after_of_writes_sub hostOps0_1 W pre1_writes h

/-- The references the stretch `hostOps0_2` writes. -/
abbrev pre2_W : List (Ref sig .tc) := [main_c, main_v15, main_v16, main_c_3, main_v17, main_v18, main_v19, main_v20, main_v21, main_c_4, main_v22, main_v23, main_c_5, main_v24, main_v25, main_v26, main_v27, main_v28, main_v29, main_v30, main_v31, main_v32]
theorem pre2_writes : (hostOps0_2 : List (HloOp τ sig (Elt F))).Forall fun op => op.writes ⊆ (pre2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write keeps its contents. -/
theorem pre2_keep (W : Valuation τ sig (Elt F)) (r : Ref sig .tc) (h : r ∉ pre2_W) :
    StableHlo.after hostOps0_2 W (Proc.devRef .tc r) = W (Proc.devRef .tc r) :=
  StableHlo.after_of_writes_sub hostOps0_2 W pre2_writes h

/-- The references the stretch `hostOps1` writes. -/
abbrev agg1_W : List (Ref sig .tc) := [main_c_6, main_v34, main_v35, main_c_7, main_v36, main_v37, main_v38, main_v39, main_v40, main_v41, main_v42, main_v43, main_cst_8, main_v44, main_v45, main_v46]
theorem agg1_writes : (hostOps1 : List (HloOp τ sig (Elt F))).Forall fun op => op.writes ⊆ (agg1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write keeps its contents. -/
theorem agg1_keep (W : Valuation τ sig (Elt F)) (r : Ref sig .tc) (h : r ∉ agg1_W) :
    StableHlo.after hostOps1 W (Proc.devRef .tc r) = W (Proc.devRef .tc r) :=
  StableHlo.after_of_writes_sub hostOps1 W agg1_writes h

/-- The references the stretch `hostOps2` writes. -/
abbrev agg2_W : List (Ref sig .tc) := [main_c_9, main_v48, main_v49, main_c_10, main_v50, main_v51, main_v52, main_v53, main_v54, main_v55, main_v56, main_v57, main_cst_11, main_v58, main_v59, main_v60]
theorem agg2_writes : (hostOps2 : List (HloOp τ sig (Elt F))).Forall fun op => op.writes ⊆ (agg2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write keeps its contents. -/
theorem agg2_keep (W : Valuation τ sig (Elt F)) (r : Ref sig .tc) (h : r ∉ agg2_W) :
    StableHlo.after hostOps2 W (Proc.devRef .tc r) = W (Proc.devRef .tc r) :=
  StableHlo.after_of_writes_sub hostOps2 W agg2_writes h

/-- The references the stretch `hostOps3` writes. -/
abbrev agg3_W : List (Ref sig .tc) := [main_c_12, main_v62, main_v63, main_c_13, main_v64, main_v65, main_v66, main_v67, main_v68, main_v69, main_v70, main_cst_14, main_v71, main_v72, main_v73]
theorem agg3_writes : (hostOps3 : List (HloOp τ sig (Elt F))).Forall fun op => op.writes ⊆ (agg3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write keeps its contents. -/
theorem agg3_keep (W : Valuation τ sig (Elt F)) (r : Ref sig .tc) (h : r ∉ agg3_W) :
    StableHlo.after hostOps3 W (Proc.devRef .tc r) = W (Proc.devRef .tc r) :=
  StableHlo.after_of_writes_sub hostOps3 W agg3_writes h

/-! ## The values the stretches compute -/

section Values

variable (W : Valuation τ sig (Elt F))
  (x0 : (⟨Cert.ReferenceIdeal.S100000x1, .f32⟩ : BufTy).Contents (Elt F)) (x1 : (⟨Cert.ReferenceIdeal.S2x3200000, .i32⟩ : BufTy).Contents (Elt F)) (x2 : (⟨Cert.ReferenceIdeal.S1x64, .f32⟩ : BufTy).Contents (Elt F)) (x3 : (⟨Cert.ReferenceIdeal.S64, .f32⟩ : BufTy).Contents (Elt F))
  (x4 : (⟨Cert.ReferenceIdeal.S64x64, .f32⟩ : BufTy).Contents (Elt F)) (x5 : (⟨Cert.ReferenceIdeal.S64, .f32⟩ : BufTy).Contents (Elt F)) (x6 : (⟨Cert.ReferenceIdeal.S64x1, .f32⟩ : BufTy).Contents (Elt F)) (x7 : (⟨Cert.ReferenceIdeal.S1, .f32⟩ : BufTy).Contents (Elt F))

/-- The source nodes with the self loops appended. -/
theorem pre0_v3 (h1 : W (Proc.devRef .tc main_arg1) = x1) :
    StableHlo.after hostOps0 W (Proc.devRef .tc main_v3) = val_main_v3 (F := F) x1 := by
  after_results_simp; finish_results_rw; rw [h1]; rfl
/-- The target nodes with the self loops appended. -/
theorem pre0_v6 (h1 : W (Proc.devRef .tc main_arg1) = x1) :
    StableHlo.after hostOps0 W (Proc.devRef .tc main_v6) = val_main_v6 (F := F) x1 := by
  after_results_simp; finish_results_rw; rw [h1]; rfl
/-- Which nodes have a positive degree. -/
theorem pre0_v12 (h1 : W (Proc.devRef .tc main_arg1) = x1) :
    StableHlo.after hostOps0 W (Proc.devRef .tc main_v12) = val_main_v12 (F := F) x1 := by
  after_results_simp; finish_results_rw; rw [h1]; rfl
/-- The reciprocal square root of the degrees. -/
theorem pre0_v13 (h1 : W (Proc.devRef .tc main_arg1) = x1) :
    StableHlo.after hostOps0 W (Proc.devRef .tc main_v13) = val_main_v13 (F := F) x1 := by
  after_results_simp; finish_results_rw; rw [h1]; rfl
/-- The zero the selection falls back to. -/
theorem pre0_cst2 : StableHlo.after hostOps0 W (Proc.devRef .tc main_cst_2) = val_main_cst_2 (F := F) := by
  after_results_simp <;> rfl

/-- The normalisation factor per node: the reciprocal square root of a positive degree, else zero. -/
theorem pre1_v14 (h12 : W (Proc.devRef .tc main_v12) = val_main_v12 (F := F) x1)
    (h13 : W (Proc.devRef .tc main_v13) = val_main_v13 (F := F) x1)
    (hc : W (Proc.devRef .tc main_cst_2) = val_main_cst_2 (F := F)) :
    StableHlo.after hostOps0_1 W (Proc.devRef .tc main_v14) = val_main_v14 (F := F) x1 := by
  after_results_simp
  simp only [Cert.Lib.ofBuf_toBuf]
  rw [h12, h13, hc]
  rfl

/-- The normalisation per edge: the product of the factors of its two end nodes. -/
theorem pre2_v29 (h3 : W (Proc.devRef .tc main_v3) = val_main_v3 (F := F) x1)
    (h6 : W (Proc.devRef .tc main_v6) = val_main_v6 (F := F) x1)
    (h14 : W (Proc.devRef .tc main_v14) = val_main_v14 (F := F) x1) :
    StableHlo.after hostOps0_2 W (Proc.devRef .tc main_v29) = val_main_v29 (F := F) x1 := by
  after_results_simp; rw [h3, h6, h14]; rfl
/-- The first bias as a row. -/
theorem pre2_v30 (h : W (Proc.devRef .tc main_arg3) = x3) :
    StableHlo.after hostOps0_2 W (Proc.devRef .tc main_v30) = shapeCast S1x64 x3 shapeCasts_S64_S1x64 := by
  after_results_simp; rw [h]; rfl
/-- The second bias as a row. -/
theorem pre2_v31 (h : W (Proc.devRef .tc main_arg5) = x5) :
    StableHlo.after hostOps0_2 W (Proc.devRef .tc main_v31) = shapeCast S1x64 x5 shapeCasts_S64_S1x64 := by
  after_results_simp; rw [h]; rfl
/-- The last bias as a one-entry matrix. -/
theorem pre2_v32 (h : W (Proc.devRef .tc main_arg7) = x7) :
    StableHlo.after hostOps0_2 W (Proc.devRef .tc main_v32) = shapeCast S1x1 x7 shapeCasts_S1_S1x1 := by
  after_results_simp; rw [h]; rfl

/-- The first aggregation, of the first product's rows. -/
theorem agg1_v46 (h3 : W (Proc.devRef .tc main_v3) = val_main_v3 (F := F) x1)
    (h6 : W (Proc.devRef .tc main_v6) = val_main_v6 (F := F) x1)
    (h29 : W (Proc.devRef .tc main_v29) = val_main_v29 (F := F) x1)
    (hl : W (Proc.devRef .tc main_v33) = val_main_v30 (F := F) x0 x2) :
    StableHlo.after hostOps1 W (Proc.devRef .tc main_v46) = val_main_v43 (F := F) x0 x1 x2 := by
  after_results_simp; rw [h3, h6, h29, hl]; rfl

/-- The second aggregation, of the second product's rows. -/
theorem agg2_v60 (h3 : W (Proc.devRef .tc main_v3) = val_main_v3 (F := F) x1)
    (h6 : W (Proc.devRef .tc main_v6) = val_main_v6 (F := F) x1)
    (h29 : W (Proc.devRef .tc main_v29) = val_main_v29 (F := F) x1)
    (hl : W (Proc.devRef .tc main_v47) = val_main_v48 (F := F) x0 x1 x2 x3 x4) :
    StableHlo.after hostOps2 W (Proc.devRef .tc main_v60) = val_main_v61 (F := F) x0 x1 x2 x3 x4 := by
  after_results_simp; rw [h3, h6, h29, hl]; rfl

/-- The third aggregation, of the third product's one column. -/
theorem agg3_v73 (h3 : W (Proc.devRef .tc main_v3) = val_main_v3 (F := F) x1)
    (h6 : W (Proc.devRef .tc main_v6) = val_main_v6 (F := F) x1)
    (h29 : W (Proc.devRef .tc main_v29) = val_main_v29 (F := F) x1)
    (hl : W (Proc.devRef .tc main_v61) = val_main_v66 (F := F) x0 x1 x2 x3 x4 x5 x6) :
    StableHlo.after hostOps3 W (Proc.devRef .tc main_v73) = val_main_v78 (F := F) x0 x1 x2 x3 x4 x5 x6 := by
  after_results_simp; rw [h3, h6, h29, hl]; rfl

/-- The result: the readout's one column as a vector. -/
theorem tail_v75 (hl : W (Proc.devRef .tc main_v74) = val_main_v87 (F := F) x0 x1 x2 x3 x4 x5 x6 x7) :
    StableHlo.after hostOps4 W (Proc.devRef .tc main_v75) = val_main_v88 (F := F) x0 x1 x2 x3 x4 x5 x6 x7 := by
  after_results_simp; rw [hl]; rfl

end Values

end Cert.KernelIdeal.Stretch

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.Region03.lean ====
/-
  The first layer's product and the readout, as whole-array values of the idealized kernel's first and last
  pipelined regions.

  Each of the two regions sweeps ten row blocks of 10000 rows. At point `t` the body writes, into rows
  `10000 t … 10000 t + 9999` of the output, a function of the same rows of its row operand and of its whole small
  operand: in the first region the product of the one input feature with the 1×64 weight row (a contraction over a
  single index), in the last the logistic function of the row's entry plus the one bias. Each block so written is the
  restriction to its rows of ONE function of the whole operands — the reference's `dot_general`, respectively
  `1 / (1 + exp (-(a + b)))` — and the ten blocks cover the array, so the array ends holding that function.
-/
import proofs.«117944_j7052336300283_1_alg».proof.Proof.Gen.KernelIdeal.Frame
import proofs.«117944_j7052336300283_1_alg».proof.Proof.Layers
import proofs.«117944_j7052336300283_1_alg».proof.Proof.LibPlainDot
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.RegionVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

/-- The two zero offsets of an access to a whole block. -/
theorem rc_hz : (![0, 0] : Fin 2 → Nat) = fun _ => 0 := funext fun a => by fin_cases a <;> rfl

/-! ## The last region: bias and logistic function -/

/-- A vector of one element reshaped to one row reads that element wherever it is read. -/
theorem rc_reshape_one (b : S1.Idx → EReal) (h : S1.ShapeCasts S1x1) (j : S1x1.Idx) (k : S1.Idx) :
    shapeCast S1x1 b h j = b k :=
  shapeCast_apply b h j k (by
    rewrite [Shape.rowMajor_val_one, Shape.rowMajor_val_two]
    have a0 : (k 0).val < 1 := (k 0).isLt
    have a1 : (j 0).val < 1 := (j 0).isLt
    have a2 : (j 1).val < 1 := (j 1).isLt
    show (k 0).val = (j 0).val * 1 + (j 1).val
    omega)

/-- The body's payload at a row of its block: the logistic function of the row's entry plus the bias. -/
theorem rc_pay3 (x : Vec Ideal S10000x1 .f32) (bb : Vec Ideal S1x1 .f32) (j : S10000x1.Idx) :
    k3_pay1 (F := Ideal) x bb j = Ideal.logistic (x j + bb (ix2 (0 : Fin 1) (0 : Fin 1))) := by
  unfold k3_pay1
  show Ideal.logistic (shapeCast S10000x1 x shapeCasts_S10000x1_S10000x1 j
      + broadcastTo S10000x1 (shapeCast S1x1 bb shapeCasts_S1x1_S1x1) broadcasts_S1x1_S10000x1 j) = _
  rw [shapeCast_self, shapeCast_self, broadcastTo_apply bb broadcasts_S1x1_S10000x1 j (ix2 (0 : Fin 1) (0 : Fin 1)) (fun a => by
    match a with
    | ⟨0, _⟩ => exact (if_pos rfl).symm
    | ⟨1, _⟩ => exact (if_pos rfl).symm)]

/-- The reference's readout at a row: its two constants are the word of one, the bias broadcast to every row reads the
    bias, and the quotient `1 / (1 + exp (-z))` is the logistic function of `z`. -/
theorem rc_readout_apply (a : (⟨Cert.ReferenceIdeal.S100000x1, .f32⟩ : BufTy).Contents (Elt Ideal))
    (b : (⟨Cert.ReferenceIdeal.S1, .f32⟩ : BufTy).Contents (Elt Ideal)) (i : S100000x1.Idx) (k : S1.Idx) :
    Cert.Layers.readout (F := Ideal) a b i = Ideal.logistic (a i + b k) := by
  show FloatOps.hostDivf (F := Ideal) (φ := .f32) (Cert.ReferenceIdeal.ReadP.val_main_v86 (F := Ideal) i)
      (FloatOps.addf (F := Ideal) (φ := .f32) (Cert.ReferenceIdeal.ReadP.val_main_v84 (F := Ideal) i)
        (FloatOps.hostUnary (F := Ideal) (φ := .f32) .exp (FloatOps.hostNegf (F := Ideal) (φ := .f32)
          (FloatOps.addf (F := Ideal) (φ := .f32) (a i) (Cert.ReferenceIdeal.ReadP.val_main_v80 (F := Ideal) b i))))) = _
  have ek : Cert.ReferenceIdeal.ReadP.idx_main_v79 (Cert.ReferenceIdeal.ReadP.idx_main_v80 i) = k :=
    funext fun d => Fin.ext (by
      match d with
      | ⟨0, _⟩ => have hk : (k 0).val < 1 := (k 0).isLt; show 0 = (k 0).val; omega)
  rw [Cert.ReferenceIdeal.ReadP.val_main_v86_apply, Cert.ReferenceIdeal.ReadP.val_main_cst_16_apply,
    Cert.ReferenceIdeal.ReadP.val_main_v84_apply, Cert.ReferenceIdeal.ReadP.val_main_cst_15_apply,
    Cert.ReferenceIdeal.ReadP.val_main_v80_apply, Cert.ReferenceIdeal.ReadP.val_main_v79_apply, ek,
    show (FloatOps.ofBits .f32 0x3F800000#32 : Ideal .f32) = 1 from Ideal.ofBits_one_f32]
  rfl

/-- Decided over the grid: at point `t` the row operand's block and the output's block are block row `t`, block
    column 0; the bias's block is the whole one-element array. -/
theorem rc_idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- WHAT POINT `t` WRITES BACK is block `t` of the readout of the whole arrays: the row operand's block and the
    output's block are the same rows, and the bias's one-row window reads the bias. -/
theorem rc_flushed3 (a : (⟨S100000x1, .f32⟩ : BufTy).Contents (Elt Ideal)) (b : (⟨S1, .f32⟩ : BufTy).Contents (Elt Ideal))
    (ha : V c main_v73 = a) (hb : V c main_v32 = shapeCast S1x1 b shapeCasts_S1_S1x1) (t : Fin cfg3.N) :
    (dat3 (F := Ideal) V c).flushed 2 t
      = ((cfg3.win 2).blk t).view.read (Elt Ideal) (fun i : S100000x1.Idx => Ideal.logistic (a i + b (ix1 (0 : Fin 1)))) := by
  show (cfg3.win 2).cut (grid3.coords t) ((dat3 (F := Ideal) V c).after 2 t) = _
  rw [after3_2]
  unfold out3_2
  rw [View.canon_unit_zero rc_hz]
  simp only [View.ld_unit_zero (S := S10000x1) rc_hz, View.ld_unit_zero (S := S1x1) rc_hz]
  unfold iblk3
  rw [show V c (Pipeline.arrRef spec3 0) = a from ha,
    show V c (Pipeline.arrRef spec3 1) = shapeCast S1x1 b shapeCasts_S1_S1x1 from hb]
  obtain ⟨e0, e1, e2, e3, e4, e5⟩ := rc_idx3 t
  funext j
  rw [View.read_apply, cast_eq]
  refine (rc_pay3 (((cfg3.win 0).blk t).view.read (Elt Ideal) a)
    (((cfg3.win 1).blk t).view.read (Elt Ideal) (shapeCast S1x1 b shapeCasts_S1_S1x1))
    ((cfg3.win 2).xinj (grid3.coords t) j)).trans ?_
  rw [View.read_apply, View.read_apply, cast_eq, cast_eq, rc_reshape_one b shapeCasts_S1_S1x1 _ (ix1 (0 : Fin 1))]
  have hemb : ((cfg3.win 0).blk t).view.emb ((cfg3.win 2).xinj (grid3.coords t) j) = ((cfg3.win 2).blk t).view.emb j := by
    funext d; apply Fin.ext
    match d with
    | ⟨0, _⟩ => show win3_0.index t (0 : Fin 2) * 10000 + 1 * (j 0).val = win3_2.index t (0 : Fin 2) * 10000 + 1 * (j 0).val; omega
    | ⟨1, _⟩ => show win3_0.index t (1 : Fin 2) * 1 + 1 * (j 1).val = win3_2.index t (1 : Fin 2) * 1 + 1 * (j 1).val; omega
  rw [hemb]

/-- An index of the output array is in point `t`'s block iff each coordinate is in the block's range on its axis. -/
theorem rc_mem_blk3 (t : Fin cfg3.N) (i : S100000x1.Idx) :
    i ∈ ((cfg3.win 2).blk t).view.set ↔ ∀ d : Fin 2, win3_2.index t d * S10000x1.size d ≤ (i d).val
      ∧ (i d).val < win3_2.index t d * S10000x1.size d + S10000x1.size d := by
  show i ∈ ((View.whole main_v74).slice (win3_2.rect t)).set ↔ _
  rw [View.set_slice_whole, Rect.mem_set_unit]
  exact Iff.rfl

/-- Every block row is some point's. -/
theorem rc_onto3 : ∀ q : Fin 10, ∃ t : Fin cfg3.N, win3_2.index t = ![q.val, 0] :=
  (by decide +kernel : ∀ q : Fin 10, ∃ t : Fin grid3.N, win3_2.index t = ![q.val, 0])

/-- Row `r` of the output is in the block of point `r / 10000`: the ten blocks cover the array. -/
theorem rc_cover3 (i : S100000x1.Idx) :
    ∃ t : Fin cfg3.N, (cfg3.win 2).flush t = true ∧ i ∈ ((cfg3.win 2).blk t).view.set := by
  have hi0 : (i 0).val < 100000 := (i 0).isLt
  have hi1 : (i 1).val < 1 := (i 1).isLt
  obtain ⟨t, ht⟩ := rc_onto3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [rc_mem_blk3]
  intro d
  match d with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 1 ≤ (i 1).val ∧ (i 1).val < win3_2.index t (1 : Fin 2) * 1 + 1
    omega

/-- The reference's readout of the whole arrays is, at every row, the logistic function of the row's entry plus the bias. -/
theorem rc_readout_eq (a : (⟨Cert.ReferenceIdeal.S100000x1, .f32⟩ : BufTy).Contents (Elt Ideal))
    (b : (⟨Cert.ReferenceIdeal.S1, .f32⟩ : BufTy).Contents (Elt Ideal)) :
    Cert.Layers.readout (F := Ideal) a b = fun i : S100000x1.Idx => Ideal.logistic (a i + b (ix1 (0 : Fin 1))) :=
  funext fun i => rc_readout_apply a b i (ix1 (0 : Fin 1))

/-- THE LAST REGION'S OUTPUT ARRAY after the region: the readout of its two input arrays, the bias window holding the
    one-element bias reshaped to one row. -/
theorem region3_val (a : (⟨Cert.ReferenceIdeal.S100000x1, .f32⟩ : BufTy).Contents (Elt Ideal)) (b : (⟨Cert.ReferenceIdeal.S1, .f32⟩ : BufTy).Contents (Elt Ideal))
    (ha : V c main_v73 = a) (hb : V c main_v32 = shapeCast S1x1 b shapeCasts_S1_S1x1) :
    (dat3 (F := Ideal) V c).arrAt 2 cfg3.N = Cert.Layers.readout (F := Ideal) a b :=
  ((dat3 (F := Ideal) V c).arrAt_eq_of_cover 2 _ (fun t _ => rc_flushed3 V c a b ha hb t) rc_cover3).trans
    (rc_readout_eq a b).symm

/-! ## The first region: the input feature times its weight row -/

/-- The body's payload at an index of its block: the contraction over the single shared index (the narrowing of the
    operands before the product changes nothing on the extended reals). -/
theorem rc_pay0 (x : Vec Ideal S10000x1 .f32) (w : Vec Ideal S1x64 .f32) (j : S10000x64.Idx) :
    k0_pay1 (F := Ideal) x w j = ∑ k : Fin 1, x (ix2 (j 0) k) * w (ix2 k (j 1)) := by
  unfold k0_pay1
  exact Cert.PlainDot.matmul_zero_apply 10000 1 64 (φ₁ := .bf16) (φ₂ := .bf16) none
    (truncf .bf16 x bitsLt_bf16_f32) (truncf .bf16 w bitsLt_bf16_f32) j

/-- The product of the whole arrays, index by index: entry `(r, q)` is the sum over the one shared index of the row
    operand at row `r` times the weight row at column `q`. -/
def rc_prod (x0 : S100000x1.Idx → EReal) (x2 : S1x64.Idx → EReal) : S100000x64.Idx → EReal :=
  fun i => ∑ k : Fin 1, x0 (ix2 (i 0) k) * x2 (ix2 k (i 1))

/-- Decided over the grid: at point `t` the row operand's block and the output's block are block row `t`, block
    column 0; the weight row's block is the whole row. -/
theorem rc_idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the product of the whole arrays: entry `(r, q)` of the block is the
    sum over the one shared index of the row operand at the block's row `r` times the weight row at column `q`. -/
theorem rc_flushed0 (x0 : (⟨S100000x1, .f32⟩ : BufTy).Contents (Elt Ideal)) (x2 : (⟨S1x64, .f32⟩ : BufTy).Contents (Elt Ideal))
    (h0 : V c main_arg0 = x0) (h2 : V c main_arg2 = x2) (t : Fin cfg0.N) :
    (dat0 (F := Ideal) V c).flushed 2 t
      = ((cfg0.win 2).blk t).view.read (Elt Ideal) (rc_prod x0 x2) := by
  show (cfg0.win 2).cut (grid0.coords t) ((dat0 (F := Ideal) V c).after 2 t) = _
  rw [after0_2]
  unfold out0_2
  rw [View.canon_unit_zero rc_hz]
  simp only [View.ld_unit_zero (S := S10000x1) rc_hz, View.ld_unit_zero (S := S1x64) rc_hz]
  unfold iblk0
  rw [show V c (Pipeline.arrRef spec0 0) = x0 from h0, show V c (Pipeline.arrRef spec0 1) = x2 from h2]
  obtain ⟨e0, e1, e2, e3, e4, e5⟩ := rc_idx0 t
  funext j
  rw [View.read_apply, cast_eq]
  refine (rc_pay0 (((cfg0.win 0).blk t).view.read (Elt Ideal) x0) (((cfg0.win 1).blk t).view.read (Elt Ideal) x2)
    ((cfg0.win 2).xinj (grid0.coords t) j)).trans ?_
  unfold rc_prod
  refine Finset.sum_congr rfl fun k _ => ?_
  rw [View.read_apply, View.read_apply, cast_eq, cast_eq]
  have hk : k.val < 1 := k.isLt
  refine congrArg₂ (fun u v : EReal => u * v) (congrArg x0 ?_) (congrArg x2 ?_)
  · funext d; apply Fin.ext
    match d with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 1 + 1 * k.val = k.val
      omega
  · funext d; apply Fin.ext
    match d with
    | ⟨0, _⟩ =>
      show win0_1.index t (0 : Fin 2) * 1 + 1 * k.val = k.val
      omega
    | ⟨1, _⟩ =>
      show win0_1.index t (1 : Fin 2) * 64 + 1 * (j 1).val = win0_2.index t (1 : Fin 2) * 64 + 1 * (j 1).val
      omega

/-- An index of the output array is in point `t`'s block iff each coordinate is in the block's range on its axis. -/
theorem rc_mem_blk0 (t : Fin cfg0.N) (i : S100000x64.Idx) :
    i ∈ ((cfg0.win 2).blk t).view.set ↔ ∀ d : Fin 2, win0_2.index t d * S10000x64.size d ≤ (i d).val
      ∧ (i d).val < win0_2.index t d * S10000x64.size d + S10000x64.size d := by
  show i ∈ ((View.whole main_v33).slice (win0_2.rect t)).set ↔ _
  rw [View.set_slice_whole, Rect.mem_set_unit]
  exact Iff.rfl

/-- Every block row is some point's. -/
theorem rc_onto0 : ∀ q : Fin 10, ∃ t : Fin cfg0.N, win0_2.index t = ![q.val, 0] :=
  (by decide +kernel : ∀ q : Fin 10, ∃ t : Fin grid0.N, win0_2.index t = ![q.val, 0])

/-- Row `r` of the output is in the block of point `r / 10000`: the ten blocks cover the array. -/
theorem rc_cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := rc_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [rc_mem_blk0]
  intro d
  match d with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- The reference's `dot_general` of the whole arrays is that product. -/
theorem rc_dot_eq (x0 : (⟨Cert.ReferenceIdeal.S100000x1, .f32⟩ : BufTy).Contents (Elt Ideal))
    (x2 : (⟨Cert.ReferenceIdeal.S1x64, .f32⟩ : BufTy).Contents (Elt Ideal)) :
    Cert.ReferenceIdeal.ReadP.val_main_v30 (F := Ideal) x0 x2 = rc_prod x0 x2 :=
  funext fun i => Cert.PlainDot.dotGeneral_apply 100000 1 64 (φ₁ := .f32) (φ₂ := .f32) none .single x0 x2 i

/-- THE FIRST REGION'S OUTPUT ARRAY after the region: the reference's product of its two input arrays. -/
theorem region0_val (x0 : (⟨Cert.ReferenceIdeal.S100000x1, .f32⟩ : BufTy).Contents (Elt Ideal)) (x2 : (⟨Cert.ReferenceIdeal.S1x64, .f32⟩ : BufTy).Contents (Elt Ideal))
    (h0 : V c main_arg0 = x0) (h2 : V c main_arg2 = x2) :
    (dat0 (F := Ideal) V c).arrAt 2 cfg0.N = Cert.ReferenceIdeal.ReadP.val_main_v30 (F := Ideal) x0 x2 :=
  ((dat0 (F := Ideal) V c).arrAt_eq_of_cover 2 (rc_prod x0 x2) (fun t _ => rc_flushed0 V c x0 x2 h0 h2 t) rc_cover0).trans
    (rc_dot_eq x0 x2).symm

end Cert.KernelIdeal.RegionVal

end
-- ==== Proof.Region1.lean ====
/-
  The second layer's dense part, block by block.

  Between the first and the second neighbourhood aggregation every node's row `a r` of 64 features gets a bias, a
  rectifier and a product with a 64×64 weight: `out (r, q) = ∑ k, max (a (r, k) + b k, 0) * w (k, q)`. The kernel computes
  it over ten blocks of 10000 rows; each point of the grid loads its block of rows, the bias laid out as one row and the
  whole weight, and stores the product of the rectified biased block with the weight. On the extended reals every
  operation is exact, so one element of a stored block is the sum above at the node's row (`ra_pay_apply`,
  `ra_block_apply`), the reference's whole-array stage at an index is the same sum (`ra_lin1_apply`), what a point writes
  back is its block of that one function (`ra_flushed_eq`), and the ten blocks cover the array (`ra_cover`): the output
  array ends holding the whole-array function (`region1_val`).
-/
import proofs.«117944_j7052336300283_1_alg».proof.Proof.Gen.KernelIdeal.Frame
import proofs.«117944_j7052336300283_1_alg».proof.Proof.Layers
import proofs.«117944_j7052336300283_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.RegionVal
open Cert.KernelIdeal Cert.KernelIdeal.Gen Idealize.ShloMosaic Idealize.ShloMosaic.TcCoe Idealize.SL.Sem
open Idealize.ShloMosaic.Pipeline (Dat)
variable (V : (c : Dev nD) → (b : Ref sig .tc) → Buf (Elt Ideal) ((c : Thread nD τ).loc b)) (c : Dev nD)
open Idealize.ShloMosaic.ValueIdx

/-- One element of a block of the layer: the rectified biased row against a weight column. -/
theorem ra_pay_apply (x : FVec Ideal S10000x64 .f32) (bb : FVec Ideal S1x64 .f32) (ww : FVec Ideal S64x64 .f32)
    (p : Fin 10000) (q : Fin 64) :
    k1_pay1 (F := Ideal) x bb ww (ix2 p q)
      = ∑ k : Fin 64, max (x (ix2 p k) + bb (ix2 0 k)) 0 * ww (ix2 k q) := by
  unfold k1_pay1
  refine (Cert.PlainDot.matmul_zero_apply 10000 64 64 (φ₁ := .bf16) (φ₂ := .bf16) none _ _ (ix2 p q)).trans ?_
  refine Finset.sum_congr rfl fun k _ => ?_
  have hb : broadcastTo S10000x64 bb broadcasts_S1x64_S10000x64 (ix2 p k) = bb (ix2 0 k) :=
    broadcastTo_apply bb broadcasts_S1x64_S10000x64 (ix2 p k) (ix2 0 k) (fun a => by
      match a with
      | ⟨0, _⟩ => show (0 : Nat) = if (1 : Nat) = 1 then 0 else _; rw [if_pos rfl]
      | ⟨1, _⟩ => show k.val = if (64 : Nat) = 1 then 0 else _; rw [if_neg (by decide)]; rfl)
  show max (shapeCast S10000x64 x shapeCasts_S10000x64_S10000x64 (ix2 p k) + broadcastTo S10000x64 (shapeCast S1x64 bb shapeCasts_S1x64_S1x64) broadcasts_S1x64_S10000x64 (ix2 p k)) (Ideal.ofBits .f32 0x00000000#32) * ww (ix2 k q) = _
  rw [shapeCast_self, shapeCast_self, hb, Ideal.ofBits_zero_f32]

/-- The bias vector laid out as one row, read at a column. -/
theorem ra_bias_row (b : (⟨Cert.ReferenceIdeal.S64, .f32⟩ : BufTy).Contents (Elt Ideal)) (k : Fin 64) :
    shapeCast S1x64 b shapeCasts_S64_S1x64 (ix2 0 k) = b (ix1 k) :=
  shapeCast_apply b shapeCasts_S64_S1x64 (ix2 0 k) (ix1 k) (by
    rw [Shape.rowMajor_val_one, Shape.rowMajor_val_two]
    show k.val = 0 * 64 + k.val
    omega)

/-- The layer's dense part at a node and an output feature: the rectified biased row against a weight column. -/
theorem ra_lin1_apply (a : (⟨Cert.ReferenceIdeal.S100000x64, .f32⟩ : BufTy).Contents (Elt Ideal))
    (b : (⟨Cert.ReferenceIdeal.S64, .f32⟩ : BufTy).Contents (Elt Ideal))
    (w : (⟨Cert.ReferenceIdeal.S64x64, .f32⟩ : BufTy).Contents (Elt Ideal)) (i : S100000x64.Idx) :
    Cert.Layers.lin1 (F := Ideal) a b w i
      = ∑ k : Fin 64, max (a (ix2 (i 0) k) + shapeCast S1x64 b shapeCasts_S64_S1x64 (ix2 0 k)) 0 * w (ix2 k (i 1)) := by
  unfold Cert.Layers.lin1
  refine (Cert.PlainDot.dotGeneral_apply 100000 64 64 (φ₁ := .f32) (φ₂ := .f32) none HostSchedule.single _ _ i).trans ?_
  refine Finset.sum_congr rfl fun k _ => ?_
  show max (a (ix2 (i 0) k) + Cert.ReferenceIdeal.ReadP.val_main_v45 (F := Ideal) b (ix2 (i 0) k))
      (Cert.ReferenceIdeal.ReadP.val_main_call1_v0 (F := Ideal) (ix2 (i 0) k)) * w (ix2 k (i 1)) = _
  rw [Cert.ReferenceIdeal.ReadP.val_main_v45_apply, Cert.ReferenceIdeal.ReadP.val_main_v44_apply,
    Cert.ReferenceIdeal.ReadP.val_main_call1_v0_apply, Cert.ReferenceIdeal.ReadP.val_main_call1_cst_apply, ra_bias_row]
  show max (a (ix2 (i 0) k) + b _) (Ideal.ofBits .f32 0x00000000#32) * w (ix2 k (i 1)) = max (a (ix2 (i 0) k) + b _) 0 * w (ix2 k (i 1))
  rw [Ideal.ofBits_zero_f32]
  congr 3
  exact congrArg b (funext fun d => by match d with | ⟨0, _⟩ => rfl)

theorem ra_hz : (![0, 0] : Fin 2 → Nat) = fun _ => 0 := funext fun a => by fin_cases a <;> rfl

/-- The block index maps over the grid: the row windows move one block of rows per point, the bias row and the
    weight stay whole. -/
theorem ra_idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row block `t` of the aggregated rows: rows `10000 t … 10000 t + 9999`. -/
theorem ra_iblk0_apply (a : (⟨S100000x64, .f32⟩ : BufTy).Contents (Elt Ideal)) (ha : V c main_v46 = a)
    (t : Fin cfg1.N) (x : S10000x64.Idx) (i : S100000x64.Idx)
    (h0 : (i 0).val = 10000 * t.val + (x 0).val) (h1 : (i 1).val = (x 1).val) :
    (iblk1 V c 0 t : Vec Ideal S10000x64 .f32) x = a i := by
  obtain ⟨e0, e1, -⟩ := ra_idx_facts t
  unfold iblk1
  rw [View.read_apply, cast_eq]
  show V c main_v46 _ = a i
  rw [ha]
  congr 1
  funext d
  apply Fin.ext
  match d with
  | ⟨0, _⟩ => show win1_0.index t 0 * 10000 + 1 * (x 0).val = (i 0).val; rw [e0, h0]; omega
  | ⟨1, _⟩ => show win1_0.index t 1 * 64 + 1 * (x 1).val = (i 1).val; rw [e1, h1]; omega

/-- The bias row's block at any point is the whole row. -/
theorem ra_iblk1_apply (bb : (⟨S1x64, .f32⟩ : BufTy).Contents (Elt Ideal)) (hb : V c main_v30 = bb)
    (t : Fin cfg1.N) (x : S1x64.Idx) :
    (iblk1 V c 1 t : Vec Ideal S1x64 .f32) x = bb x := by
  obtain ⟨-, -, e0, e1, -⟩ := ra_idx_facts t
  unfold iblk1
  rw [View.read_apply, cast_eq]
  show V c main_v30 _ = bb x
  rw [hb]
  congr 1
  funext d
  apply Fin.ext
  match d with
  | ⟨0, _⟩ => show win1_1.index t 0 * 1 + 1 * (x 0).val = (x 0).val; rw [e0]; omega
  | ⟨1, _⟩ => show win1_1.index t 1 * 64 + 1 * (x 1).val = (x 1).val; rw [e1]; omega

/-- The weight's block at any point is the whole weight. -/
theorem ra_iblk2_apply (w : (⟨S64x64, .f32⟩ : BufTy).Contents (Elt Ideal)) (hw : V c main_arg4 = w)
    (t : Fin cfg1.N) (x : S64x64.Idx) :
    (iblk1 V c 2 t : Vec Ideal S64x64 .f32) x = w x := by
  obtain ⟨-, -, -, -, e0, e1, -⟩ := ra_idx_facts t
  unfold iblk1
  rw [View.read_apply, cast_eq]
  show V c main_arg4 _ = w x
  rw [hw]
  congr 1
  funext d
  apply Fin.ext
  match d with
  | ⟨0, _⟩ => show win1_2.index t 0 * 64 + 1 * (x 0).val = (x 0).val; rw [e0]; omega
  | ⟨1, _⟩ => show win1_2.index t 1 * 64 + 1 * (x 1).val = (x 1).val; rw [e1]; omega

/-- A node's row is in point `t`'s output block iff each coordinate is in the block's range on its axis. -/
theorem ra_mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v47).slice (win1_3.rect t)).set ↔ _
  rw [View.set_slice_whole, Rect.mem_set_unit]
  exact Iff.rfl

/-- Every node's row is written back by the point of its block of 10000 rows. -/
theorem ra_cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : grid1.N = 10 := N_1
  let t : Fin cfg1.N := ⟨(i 0).val / 10000, by show (i 0).val / 10000 < grid1.N; rw [hN]; omega⟩
  have ht : t.val = (i 0).val / 10000 := rfl
  obtain ⟨-, -, -, -, -, -, e0, e1⟩ := ra_idx_facts t
  refine ⟨t, flush1_3 t, ?_⟩
  rw [ra_mem_blk]
  intro d
  match d with
  | ⟨0, _⟩ => show win1_3.index t 0 * 10000 ≤ (i 0).val ∧ (i 0).val < win1_3.index t 0 * 10000 + 10000; rw [e0, ht]; omega
  | ⟨1, _⟩ => show win1_3.index t 1 * 64 ≤ (i 1).val ∧ (i 1).val < win1_3.index t 1 * 64 + 64; rw [e1]; omega

/-- One element of a block of the layer, when the loaded blocks are a block of rows of `a`, the bias row `bb` and
    the weight `w`: the layer's sum at the node's row. -/
theorem ra_block_apply (a : S100000x64.Idx → EReal) (bb : S1x64.Idx → EReal) (w : S64x64.Idx → EReal)
    (X : FVec Ideal S10000x64 .f32) (B : FVec Ideal S1x64 .f32) (W : FVec Ideal S64x64 .f32)
    (jj : S10000x64.Idx) (i : S100000x64.Idx)
    (hX : ∀ k : Fin 64, X (ix2 (jj 0) k) = a (ix2 (i 0) k))
    (hB : ∀ k : Fin 64, B (ix2 0 k) = bb (ix2 0 k))
    (hW : ∀ k : Fin 64, W (ix2 k (jj 1)) = w (ix2 k (i 1))) :
    k1_pay1 (F := Ideal) X B W jj = ∑ k : Fin 64, max (a (ix2 (i 0) k) + bb (ix2 0 k)) 0 * w (ix2 k (i 1)) := by
  refine (congrArg (k1_pay1 (F := Ideal) X B W) (eq_ix2 (n0 := 10000) (n1 := 64) jj)).trans
    ((ra_pay_apply X B W (jj 0) (jj 1)).trans ?_)
  refine Finset.sum_congr rfl fun k _ => ?_
  rw [hX k, hB k, hW k]

/-- What point `t` writes back is block `t` of any whole-array function that has the layer's sum at every index. -/
theorem ra_flushed_eq (a : (⟨S100000x64, .f32⟩ : BufTy).Contents (Elt Ideal)) (bb : (⟨S1x64, .f32⟩ : BufTy).Contents (Elt Ideal))
    (w : (⟨S64x64, .f32⟩ : BufTy).Contents (Elt Ideal))
    (ha : V c main_v46 = a) (hb : V c main_v30 = bb) (hw : V c main_arg4 = w)
    (G : (⟨S100000x64, .f32⟩ : BufTy).Contents (Elt Ideal))
    (hG : ∀ i : S100000x64.Idx, G i = ∑ k : Fin 64, max (a (ix2 (i 0) k) + bb (ix2 0 k)) 0 * w (ix2 k (i 1)))
    (t : Fin cfg1.N) :
    (dat1 (F := Ideal) V c).flushed 3 t = ((cfg1.win 3).blk t).view.read (Elt Ideal) G := by
  show (cfg1.win 3).cut (grid1.coords t) ((dat1 V c).after 3 t) = _
  rw [after1_3]
  unfold out1_3
  rw [View.canon_unit_zero ra_hz]
  simp only [View.ld_unit_zero (S := S10000x64) ra_hz, View.ld_unit_zero (S := S1x64) ra_hz, View.ld_unit_zero (S := S64x64) ra_hz]
  obtain ⟨-, -, -, -, -, -, e0, e1⟩ := ra_idx_facts t
  funext j
  rw [View.read_apply, cast_eq, hG]
  refine ra_block_apply a bb w (iblk1 V c 0 t) (iblk1 V c 1 t) (iblk1 V c 2 t) ((cfg1.win 3).xinj (grid1.coords t) j)
    (((cfg1.win 3).blk t).view.emb j) (fun k => ?_) (fun k => ?_) (fun k => ?_)
  · refine ra_iblk0_apply V c a ha t _ _ ?_ ?_
    · show win1_3.index t 0 * 10000 + 1 * (j 0).val = 10000 * t.val + (j 0).val
      rw [e0]; omega
    · rfl
  · exact ra_iblk1_apply V c bb hb t _
  · refine (ra_iblk2_apply V c w hw t _).trans (congrArg w ?_)
    funext d
    apply Fin.ext
    match d with
    | ⟨0, _⟩ => rfl
    | ⟨1, _⟩ => show (j 1).val = win1_3.index t 1 * 64 + 1 * (j 1).val; rw [e1]; omega

/-- After the region the output array holds the layer's dense part of the aggregated rows: every point writes back
    its block of rows of that one function, and the ten blocks cover the array. -/
theorem region1_val (a : (⟨Cert.ReferenceIdeal.S100000x64, .f32⟩ : BufTy).Contents (Elt Ideal)) (b : (⟨Cert.ReferenceIdeal.S64, .f32⟩ : BufTy).Contents (Elt Ideal)) (w : (⟨Cert.ReferenceIdeal.S64x64, .f32⟩ : BufTy).Contents (Elt Ideal))
    (ha : V c main_v46 = a) (hb : V c main_v30 = shapeCast S1x64 b shapeCasts_S64_S1x64) (hw : V c main_arg4 = w) :
    (dat1 (F := Ideal) V c).arrAt 3 cfg1.N = Cert.Layers.lin1 (F := Ideal) a b w :=
  (dat1 (F := Ideal) V c).arrAt_eq_of_cover 3 (Cert.Layers.lin1 (F := Ideal) a b w)
    (fun t _ => ra_flushed_eq V c a (shapeCast S1x64 b shapeCasts_S64_S1x64) w ha hb hw
      (Cert.Layers.lin1 (F := Ideal) a b w) (ra_lin1_apply a b w) t)
    ra_cover

end Cert.KernelIdeal.RegionVal
end
-- ==== Proof.Region2.lean ====
/-
  The third layer's dense part, computed block by block, is the reference's.

  The region walks ten blocks of 10000 nodes. At each it loads the block's aggregated rows `x` (10000 × 64), the bias
  laid as one row `bb` (1 × 64) and the weight column `ww` (64 × 1), and stores `max (x + bb, 0) · ww` (10000 × 1)
  into the block of the output array at the same rows. On the extended reals every operation is exact and a change
  of float format is the identity, so the stored element at row `p` is
  `∑ k : Fin 64, max (x (p, k) + bb (0, k)) 0 * ww (k, 0)` (`rb_pay`).

  `rb_G a b w` is that sum as ONE function of the whole arrays: at node `r`,
  `∑ k, max (a (r, k) + b k) 0 * w (k, 0)`. The block at point `t` reads rows `10000 t + p` of `a`, the bias row reads
  `b`, the weight block is `w` (`rb_iblk0`, `rb_iblk1`, `rb_iblk2`), so what point `t` writes back is block `t` of
  `rb_G` (`rb_flushed`); node `r` lies in the block of point `r / 10000` (`rb_cover`), so the output array ends
  holding `rb_G` (`rb_final`). The reference's dense part, a whole-array product of the rectified biased rows with
  the weight, read at a node is the same sum (`rb_ref`): no algebraic law is used beyond reading both sides at an
  index, and no finiteness.
-/
import proofs.«117944_j7052336300283_1_alg».proof.Proof.Gen.KernelIdeal.Frame
import proofs.«117944_j7052336300283_1_alg».proof.Proof.Layers
import proofs.«117944_j7052336300283_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

/-- The zero offsets of a whole-buffer access, as a constant function. -/
theorem rb_hz : (![0, 0] : Fin 2 → Nat) = fun _ => 0 := funext fun a => by fin_cases a <;> rfl

/-- The body's product at row `p`, column `q` of its block: the rectified biased row against the weight column. -/
theorem rb_pay (x : FVec Ideal S10000x64 .f32) (bb : FVec Ideal S1x64 .f32) (ww : FVec Ideal S64x1 .f32)
    (p : Fin 10000) (q : Fin 1) :
    k2_pay1 (F := Ideal) x bb ww (ix2 p q)
      = ∑ k : Fin 64, max (x (ix2 p k) + bb (ix2 (0 : Fin 1) k)) 0 * ww (ix2 k q) := by
  unfold k2_pay1
  refine (Cert.PlainDot.matmul_zero_apply 10000 64 1 (φ₁ := .bf16) (φ₂ := .bf16) none _ _ (ix2 p q)).trans ?_
  refine Finset.sum_congr rfl fun k _ => ?_
  show max (shapeCast S10000x64 x shapeCasts_S10000x64_S10000x64 (ix2 p k)
        + broadcastTo S10000x64 (shapeCast S1x64 bb shapeCasts_S1x64_S1x64) broadcasts_S1x64_S10000x64 (ix2 p k))
      (Ideal.ofBits .f32 0x00000000#32) * ww (ix2 k q) = _
  rw [shapeCast_self, shapeCast_self, broadcastTo_1b_ab_apply, Ideal.ofBits_zero_f32]

/-- The layer's dense part at a node: over the 64 features, the rectified biased feature against the weight. -/
def rb_G (a : FVec Ideal S100000x64 .f32) (b : FVec Ideal S64 .f32) (w : FVec Ideal S64x1 .f32) :
    FVec Ideal S100000x1 .f32 :=
  fun i => ∑ k : Fin 64, max (a (ix2 (i 0) k) + b (ix1 k)) 0 * w (ix2 k (i 1))

/-- A block's product is the dense part at the array's row `r` the block's row `p` is, when the loaded blocks
    read the arrays there. -/
theorem rb_block (x : FVec Ideal S10000x64 .f32) (bb : FVec Ideal S1x64 .f32) (ww : FVec Ideal S64x1 .f32)
    (a : FVec Ideal S100000x64 .f32) (b : FVec Ideal S64 .f32) (w : FVec Ideal S64x1 .f32)
    (p : Fin 10000) (q : Fin 1) (r : Fin 100000)
    (hx : ∀ k : Fin 64, x (ix2 p k) = a (ix2 r k))
    (hbb : ∀ k : Fin 64, bb (ix2 (0 : Fin 1) k) = b (ix1 k))
    (hww : ∀ k : Fin 64, ww (ix2 k q) = w (ix2 k q)) :
    k2_pay1 (F := Ideal) x bb ww (ix2 p q) = rb_G a b w (ix2 r q) := by
  rw [rb_pay]
  show _ = ∑ k : Fin 64, max (a (ix2 r k) + b (ix1 k)) 0 * w (ix2 k q)
  refine Finset.sum_congr rfl fun k _ => ?_
  rw [hx k, hbb k, hww k]

/-- The index maps over the grid: the row windows move one block per point, the whole operands stay. -/
theorem rb_idx : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The row window's block at point `t` is rows `10000 t … 10000 t + 9999` of its array. -/
theorem rb_iblk0 (a : FVec Ideal S100000x64 .f32) (ha : V c main_v60 = a) (t : Fin cfg2.N) (p : Fin 10000) (k : Fin 64)
    (r : Fin 100000) (hr : r.val = t.val * 10000 + p.val) :
    (iblk2 V c 0 t : FVec Ideal S10000x64 .f32) (ix2 p k) = a (ix2 r k) := by
  unfold iblk2
  rw [View.read_apply]
  show V c main_v60 _ = a _
  rw [ha]
  refine congrArg a (funext fun ax => Fin.ext ?_)
  match ax with
  | ⟨0, _⟩ => show win2_0.index t (0 : Fin 2) * 10000 + 1 * p.val = r.val; rw [(rb_idx t).1, hr]; omega
  | ⟨1, _⟩ => show win2_0.index t (1 : Fin 2) * 64 + 1 * k.val = k.val; rw [(rb_idx t).2.1]; omega

/-- The bias window's one block is the bias vector laid as a row. -/
theorem rb_iblk1 (b : FVec Ideal S64 .f32) (hb : V c main_v31 = shapeCast S1x64 b shapeCasts_S64_S1x64) (t : Fin cfg2.N)
    (k : Fin 64) : (iblk2 V c 1 t : FVec Ideal S1x64 .f32) (ix2 (0 : Fin 1) k) = b (ix1 k) := by
  unfold iblk2
  rw [View.read_apply]
  show V c main_v31 _ = b _
  rw [hb]
  refine Eq.trans (congrArg (shapeCast S1x64 b shapeCasts_S64_S1x64) (?_ : _ = ix2 (0 : Fin 1) k))
    (shapeCast_a_1a_apply b shapeCasts_S64_S1x64 0 k)
  funext ax
  apply Fin.ext
  match ax with
  | ⟨0, _⟩ => show win2_1.index t (0 : Fin 2) * 1 + 1 * 0 = 0; rw [(rb_idx t).2.2.1]
  | ⟨1, _⟩ => show win2_1.index t (1 : Fin 2) * 64 + 1 * k.val = k.val; rw [(rb_idx t).2.2.2.1]; omega

/-- The weight window's one block is the weight column. -/
theorem rb_iblk2 (w : FVec Ideal S64x1 .f32) (hw : V c main_arg6 = w) (t : Fin cfg2.N) (k : Fin 64) (q : Fin 1) :
    (iblk2 V c 2 t : FVec Ideal S64x1 .f32) (ix2 k q) = w (ix2 k q) := by
  unfold iblk2
  rw [View.read_apply]
  show V c main_arg6 _ = w _
  rw [hw]
  refine congrArg w (funext fun ax => Fin.ext ?_)
  match ax with
  | ⟨0, _⟩ => show win2_2.index t (0 : Fin 2) * 64 + 1 * k.val = k.val; rw [(rb_idx t).2.2.2.2.1]; omega
  | ⟨1, _⟩ => show win2_2.index t (1 : Fin 2) * 1 + 1 * q.val = q.val; rw [(rb_idx t).2.2.2.2.2.1]; omega

/-- What point `t` writes back is block `t` of the dense part of the arrays the region finds. -/
theorem rb_flushed (a : FVec Ideal S100000x64 .f32) (b : FVec Ideal S64 .f32) (w : FVec Ideal S64x1 .f32)
    (ha : V c main_v60 = a) (hb : V c main_v31 = shapeCast S1x64 b shapeCasts_S64_S1x64) (hw : V c main_arg6 = w)
    (t : Fin cfg2.N) :
    (dat2 (F := Ideal) V c).flushed 3 t = ((cfg2.win 3).blk t).view.read (Elt Ideal) (rb_G a b w) := by
  show (cfg2.win 3).cut (grid2.coords t) ((dat2 (F := Ideal) V c).after 3 t) = _
  rw [after2_3]
  unfold out2_3
  rw [View.canon_unit_zero rb_hz]
  simp only [View.ld_unit_zero (S := S10000x64) rb_hz, View.ld_unit_zero (S := S1x64) rb_hz,
    View.ld_unit_zero (S := S64x1) rb_hz]
  funext j
  have hp : (j 0).val < 10000 := (j 0).isLt
  have hq : (j 1).val < 1 := (j 1).isLt
  have ht : t.val < 10 := t.isLt
  have hr : t.val * 10000 + (j 0).val < 100000 := by omega
  have hxj : (cfg2.win 3).xinj (grid2.coords t) j = ix2 (⟨(j 0).val, hp⟩ : Fin 10000) (⟨(j 1).val, hq⟩ : Fin 1) :=
    funext (Fin.forall_fin_two.mpr ⟨rfl, rfl⟩)
  have hemb : ((cfg2.win 3).blk t).view.emb j
      = ix2 (⟨t.val * 10000 + (j 0).val, hr⟩ : Fin 100000) (⟨(j 1).val, hq⟩ : Fin 1) := by
    funext ax
    apply Fin.ext
    match ax with
    | ⟨0, _⟩ =>
      show win2_3.index t (0 : Fin 2) * 10000 + 1 * (j 0).val = t.val * 10000 + (j 0).val
      rw [(rb_idx t).2.2.2.2.2.2.1]; omega
    | ⟨1, _⟩ =>
      show win2_3.index t (1 : Fin 2) * 1 + 1 * (j 1).val = (j 1).val
      rw [(rb_idx t).2.2.2.2.2.2.2]; omega
  rw [View.read_apply, cast_eq]
  refine (congrArg (k2_pay1 (F := Ideal) (iblk2 V c 0 t) (iblk2 V c 1 t) (iblk2 V c 2 t)) hxj).trans ?_
  refine Eq.trans ?_ (congrArg (rb_G a b w) hemb).symm
  exact rb_block (iblk2 V c 0 t) (iblk2 V c 1 t) (iblk2 V c 2 t) a b w
    (⟨(j 0).val, hp⟩ : Fin 10000) (⟨(j 1).val, hq⟩ : Fin 1) (⟨t.val * 10000 + (j 0).val, hr⟩ : Fin 100000)
    (fun k => rb_iblk0 V c a ha t (⟨(j 0).val, hp⟩ : Fin 10000) k (⟨t.val * 10000 + (j 0).val, hr⟩ : Fin 100000) rfl)
    (fun k => rb_iblk1 V c b hb t k)
    (fun k => rb_iblk2 V c w hw t k (⟨(j 1).val, hq⟩ : Fin 1))

/-- An index of the output array is in point `t`'s block iff each coordinate is in the block's range on its axis. -/
theorem rb_mem_blk (t : Fin cfg2.N) (i : S100000x1.Idx) :
    i ∈ ((cfg2.win 3).blk t).view.set ↔ ∀ ax : Fin 2, win2_3.index t ax * S10000x1.size ax ≤ (i ax).val
      ∧ (i ax).val < win2_3.index t ax * S10000x1.size ax + S10000x1.size ax := by
  show i ∈ ((View.whole main_v61).slice (win2_3.rect t)).set ↔ _
  rw [View.set_slice_whole, Rect.mem_set_unit]
  exact Iff.rfl

/-- Every row of the output array is written back by the point that holds its block of 10000 rows. -/
theorem rb_cover (i : S100000x1.Idx) :
    ∃ t : Fin cfg2.N, (cfg2.win 3).flush t = true ∧ i ∈ ((cfg2.win 3).blk t).view.set := by
  have h0 : (i 0).val < 100000 := (i 0).isLt
  have h1 : (i 1).val < 1 := (i 1).isLt
  have hlt : (i 0).val / 10000 < 10 := by omega
  refine ⟨(⟨(i 0).val / 10000, hlt⟩ : Fin cfg2.N), flush2_3 _, ?_⟩
  rw [rb_mem_blk]
  obtain ⟨-, -, -, -, -, -, e6, e7⟩ := rb_idx (⟨(i 0).val / 10000, hlt⟩ : Fin cfg2.N)
  intro ax
  match ax with
  | ⟨0, _⟩ =>
    show win2_3.index (⟨(i 0).val / 10000, hlt⟩ : Fin cfg2.N) (0 : Fin 2) * 10000 ≤ (i 0).val
      ∧ (i 0).val < win2_3.index (⟨(i 0).val / 10000, hlt⟩ : Fin cfg2.N) (0 : Fin 2) * 10000 + 10000
    rw [e6]; show (i 0).val / 10000 * 10000 ≤ (i 0).val ∧ (i 0).val < (i 0).val / 10000 * 10000 + 10000; omega
  | ⟨1, _⟩ =>
    show win2_3.index (⟨(i 0).val / 10000, hlt⟩ : Fin cfg2.N) (1 : Fin 2) * 1 ≤ (i 1).val
      ∧ (i 1).val < win2_3.index (⟨(i 0).val / 10000, hlt⟩ : Fin cfg2.N) (1 : Fin 2) * 1 + 1
    rw [e7]; omega

/-- The output array after the region is the dense part of the arrays the region finds. -/
theorem rb_final (a : FVec Ideal S100000x64 .f32) (b : FVec Ideal S64 .f32) (w : FVec Ideal S64x1 .f32)
    (ha : V c main_v60 = a) (hb : V c main_v31 = shapeCast S1x64 b shapeCasts_S64_S1x64) (hw : V c main_arg6 = w) :
    (dat2 (F := Ideal) V c).arrAt 3 cfg2.N = rb_G a b w :=
  (dat2 (F := Ideal) V c).arrAt_eq_of_cover 3 (rb_G a b w) (fun t _ => rb_flushed V c a b w ha hb hw t) rb_cover

/-- The reference's dense part is the same sum at every node: its product read at an index, the bias broadcast
    read at the row's feature, the rectifier's zero broadcast read as `0`. -/
theorem rb_ref (a : (⟨Cert.ReferenceIdeal.S100000x64, .f32⟩ : BufTy).Contents (Elt Ideal))
    (b : (⟨Cert.ReferenceIdeal.S64, .f32⟩ : BufTy).Contents (Elt Ideal))
    (w : (⟨Cert.ReferenceIdeal.S64x1, .f32⟩ : BufTy).Contents (Elt Ideal)) :
    Cert.Layers.lin2 (F := Ideal) a b w = rb_G a b w := by
  funext i
  unfold Cert.Layers.lin2
  refine (Cert.PlainDot.dotGeneral_apply 100000 64 1 (φ₁ := .f32) (φ₂ := .f32) none .single _ w i).trans ?_
  show _ = ∑ k : Fin 64, max (a (ix2 (i 0) k) + b (ix1 k)) 0 * w (ix2 k (i 1))
  refine Finset.sum_congr rfl fun k _ => ?_
  show max (a (ix2 (i 0) k) + Cert.ReferenceIdeal.ReadP.val_main_v63 (F := Ideal) b (ix2 (i 0) k))
      (Cert.ReferenceIdeal.ReadP.val_main_call2_v0 (F := Ideal) (ix2 (i 0) k)) * w (ix2 k (i 1)) = _
  have e : Cert.ReferenceIdeal.ReadP.idx_main_v62 (Cert.ReferenceIdeal.ReadP.idx_main_v63 (ix2 (i 0) k)) = ix1 k :=
    funext fun ax => match ax with | ⟨0, _⟩ => rfl
  rw [Cert.ReferenceIdeal.ReadP.val_main_v63_apply, Cert.ReferenceIdeal.ReadP.val_main_v62_apply,
    Cert.ReferenceIdeal.ReadP.val_main_call2_v0_apply, Cert.ReferenceIdeal.ReadP.val_main_call2_cst_apply, e]
  show max _ (Ideal.ofBits .f32 0x00000000#32) * _ = _
  rw [Ideal.ofBits_zero_f32]

/-- REGION 2: the output array after the region is the reference's third dense part of the region's input arrays. -/
theorem region2_val (a : (⟨Cert.ReferenceIdeal.S100000x64, .f32⟩ : BufTy).Contents (Elt Ideal)) (b : (⟨Cert.ReferenceIdeal.S64, .f32⟩ : BufTy).Contents (Elt Ideal)) (w : (⟨Cert.ReferenceIdeal.S64x1, .f32⟩ : BufTy).Contents (Elt Ideal))
    (ha : V c main_v60 = a) (hb : V c main_v31 = shapeCast S1x64 b shapeCasts_S64_S1x64) (hw : V c main_arg6 = w) :
    (dat2 (F := Ideal) V c).arrAt 3 cfg2.N = Cert.Layers.lin2 (F := Ideal) a b w :=
  (rb_final V c a b w ha hb hw).trans (rb_ref a b w).symm

end Cert.KernelIdeal.RegionVal

end
-- ==== Proof.Chain.lean ====
/-
  The idealized kernel's result as a function of its arguments.

  The kernel's buffer contents are followed through the eleven segments of its @main, from the launch memory to the last
  boundary. At every boundary the buffers that later segments read hold a stage of the reference program evaluated at the
  kernel's own argument arrays: a host stretch computes the reference's next stage from the stages it reads (the two
  programs run the same operations there), a pipelined region leaves in its output array the layer's dense part of the
  aggregated rows (which is the reference's next product, or its readout), and a buffer a segment does not write is
  carried over. At the end the result buffer holds the reference's last stage.
-/
import proofs.«117944_j7052336300283_1_alg».proof.Proof.Gen.KernelIdeal.Frame
import proofs.«117944_j7052336300283_1_alg».proof.Proof.Layers
import proofs.«117944_j7052336300283_1_alg».proof.Proof.Stretch
import proofs.«117944_j7052336300283_1_alg».proof.Proof.Region03
import proofs.«117944_j7052336300283_1_alg».proof.Proof.Region1
import proofs.«117944_j7052336300283_1_alg».proof.Proof.Region2

set_option maxRecDepth 16384

noncomputable section

namespace Cert.KernelIdeal.Chain

open Cert.KernelIdeal Cert.KernelIdeal.Gen Cert.KernelIdeal.Stretch Cert.KernelIdeal.RegionVal
open Idealize.ShloMosaic Idealize.ShloMosaic.TcCoe Idealize.SL.Sem
open Cert.ReferenceIdeal.ReadP (val_main_v3 val_main_v6 val_main_v12 val_main_v13 val_main_cst_2 val_main_v14 val_main_v29
  val_main_v30 val_main_v43 val_main_v48 val_main_v61 val_main_v66 val_main_v78 val_main_v87 val_main_v88)

variable (m : (ℓ : Loc nD τ sig) → Buf (Elt Ideal) ℓ) (ρ : Dev nD → PrngReg) (c : Dev nD)

/-! ## The argument arrays, typed as the reference's stages take them -/

abbrev X0 : (⟨Cert.ReferenceIdeal.S100000x1, .f32⟩ : BufTy).Contents (Elt Ideal) := m ((c.tc : Thread nD τ).loc main_arg0)
abbrev X1 : (⟨Cert.ReferenceIdeal.S2x3200000, .i32⟩ : BufTy).Contents (Elt Ideal) := m ((c.tc : Thread nD τ).loc main_arg1)
abbrev X2 : (⟨Cert.ReferenceIdeal.S1x64, .f32⟩ : BufTy).Contents (Elt Ideal) := m ((c.tc : Thread nD τ).loc main_arg2)
abbrev X3 : (⟨Cert.ReferenceIdeal.S64, .f32⟩ : BufTy).Contents (Elt Ideal) := m ((c.tc : Thread nD τ).loc main_arg3)
abbrev X4 : (⟨Cert.ReferenceIdeal.S64x64, .f32⟩ : BufTy).Contents (Elt Ideal) := m ((c.tc : Thread nD τ).loc main_arg4)
abbrev X5 : (⟨Cert.ReferenceIdeal.S64, .f32⟩ : BufTy).Contents (Elt Ideal) := m ((c.tc : Thread nD τ).loc main_arg5)
abbrev X6 : (⟨Cert.ReferenceIdeal.S64x1, .f32⟩ : BufTy).Contents (Elt Ideal) := m ((c.tc : Thread nD τ).loc main_arg6)
abbrev X7 : (⟨Cert.ReferenceIdeal.S1, .f32⟩ : BufTy).Contents (Elt Ideal) := m ((c.tc : Thread nD τ).loc main_arg7)

/-! ## At the launch -/

theorem W0_arg0 : W0 m ρ c (Proc.devRef .tc main_arg0) = (X0 m c) :=
  rfl
theorem W0_arg1 : W0 m ρ c (Proc.devRef .tc main_arg1) = (X1 m c) :=
  rfl
theorem W0_arg2 : W0 m ρ c (Proc.devRef .tc main_arg2) = (X2 m c) :=
  rfl
theorem W0_arg3 : W0 m ρ c (Proc.devRef .tc main_arg3) = (X3 m c) :=
  rfl
theorem W0_arg4 : W0 m ρ c (Proc.devRef .tc main_arg4) = (X4 m c) :=
  rfl
theorem W0_arg5 : W0 m ρ c (Proc.devRef .tc main_arg5) = (X5 m c) :=
  rfl
theorem W0_arg6 : W0 m ρ c (Proc.devRef .tc main_arg6) = (X6 m c) :=
  rfl
theorem W0_arg7 : W0 m ρ c (Proc.devRef .tc main_arg7) = (X7 m c) :=
  rfl

/-! ## After the first host stretch: the edge lists and the degrees -/

theorem W1_v3 : W1 m ρ c (Proc.devRef .tc main_v3) = val_main_v3 (F := Ideal) (X1 m c) :=
  pre0_v3 (W0 m ρ c) (X1 m c) rfl
theorem W1_v6 : W1 m ρ c (Proc.devRef .tc main_v6) = val_main_v6 (F := Ideal) (X1 m c) :=
  pre0_v6 (W0 m ρ c) (X1 m c) rfl
theorem W1_v12 : W1 m ρ c (Proc.devRef .tc main_v12) = val_main_v12 (F := Ideal) (X1 m c) :=
  pre0_v12 (W0 m ρ c) (X1 m c) rfl
theorem W1_v13 : W1 m ρ c (Proc.devRef .tc main_v13) = val_main_v13 (F := Ideal) (X1 m c) :=
  pre0_v13 (W0 m ρ c) (X1 m c) rfl
theorem W1_cst2 : W1 m ρ c (Proc.devRef .tc main_cst_2) = val_main_cst_2 (F := Ideal) :=
  pre0_cst2 (W0 m ρ c)
theorem W1_arg0 : W1 m ρ c (Proc.devRef .tc main_arg0) = (X0 m c) :=
  (pre0_keep (W0 m ρ c) main_arg0 (by decide)).trans (W0_arg0 m ρ c)
theorem W1_arg2 : W1 m ρ c (Proc.devRef .tc main_arg2) = (X2 m c) :=
  (pre0_keep (W0 m ρ c) main_arg2 (by decide)).trans (W0_arg2 m ρ c)
theorem W1_arg3 : W1 m ρ c (Proc.devRef .tc main_arg3) = (X3 m c) :=
  (pre0_keep (W0 m ρ c) main_arg3 (by decide)).trans (W0_arg3 m ρ c)
theorem W1_arg4 : W1 m ρ c (Proc.devRef .tc main_arg4) = (X4 m c) :=
  (pre0_keep (W0 m ρ c) main_arg4 (by decide)).trans (W0_arg4 m ρ c)
theorem W1_arg5 : W1 m ρ c (Proc.devRef .tc main_arg5) = (X5 m c) :=
  (pre0_keep (W0 m ρ c) main_arg5 (by decide)).trans (W0_arg5 m ρ c)
theorem W1_arg6 : W1 m ρ c (Proc.devRef .tc main_arg6) = (X6 m c) :=
  (pre0_keep (W0 m ρ c) main_arg6 (by decide)).trans (W0_arg6 m ρ c)
theorem W1_arg7 : W1 m ρ c (Proc.devRef .tc main_arg7) = (X7 m c) :=
  (pre0_keep (W0 m ρ c) main_arg7 (by decide)).trans (W0_arg7 m ρ c)

/-! ## After the selection: the normalisation factor per node -/

theorem W2_v14 : W2 m ρ c (Proc.devRef .tc main_v14) = val_main_v14 (F := Ideal) (X1 m c) :=
  pre1_v14 (W1 m ρ c) (X1 m c) (W1_v12 m ρ c) (W1_v13 m ρ c) (W1_cst2 m ρ c)
theorem W2_v3 : W2 m ρ c (Proc.devRef .tc main_v3) = val_main_v3 (F := Ideal) (X1 m c) :=
  (pre1_keep (W1 m ρ c) main_v3 (by decide)).trans (W1_v3 m ρ c)
theorem W2_v6 : W2 m ρ c (Proc.devRef .tc main_v6) = val_main_v6 (F := Ideal) (X1 m c) :=
  (pre1_keep (W1 m ρ c) main_v6 (by decide)).trans (W1_v6 m ρ c)
theorem W2_arg0 : W2 m ρ c (Proc.devRef .tc main_arg0) = (X0 m c) :=
  (pre1_keep (W1 m ρ c) main_arg0 (by decide)).trans (W1_arg0 m ρ c)
theorem W2_arg2 : W2 m ρ c (Proc.devRef .tc main_arg2) = (X2 m c) :=
  (pre1_keep (W1 m ρ c) main_arg2 (by decide)).trans (W1_arg2 m ρ c)
theorem W2_arg3 : W2 m ρ c (Proc.devRef .tc main_arg3) = (X3 m c) :=
  (pre1_keep (W1 m ρ c) main_arg3 (by decide)).trans (W1_arg3 m ρ c)
theorem W2_arg4 : W2 m ρ c (Proc.devRef .tc main_arg4) = (X4 m c) :=
  (pre1_keep (W1 m ρ c) main_arg4 (by decide)).trans (W1_arg4 m ρ c)
theorem W2_arg5 : W2 m ρ c (Proc.devRef .tc main_arg5) = (X5 m c) :=
  (pre1_keep (W1 m ρ c) main_arg5 (by decide)).trans (W1_arg5 m ρ c)
theorem W2_arg6 : W2 m ρ c (Proc.devRef .tc main_arg6) = (X6 m c) :=
  (pre1_keep (W1 m ρ c) main_arg6 (by decide)).trans (W1_arg6 m ρ c)
theorem W2_arg7 : W2 m ρ c (Proc.devRef .tc main_arg7) = (X7 m c) :=
  (pre1_keep (W1 m ρ c) main_arg7 (by decide)).trans (W1_arg7 m ρ c)

/-! ## At the first region's entry: the normalisation per edge, the biases as rows -/

theorem W3_v29 : W3 m ρ c (Proc.devRef .tc main_v29) = val_main_v29 (F := Ideal) (X1 m c) :=
  pre2_v29 (W2 m ρ c) (X1 m c) (W2_v3 m ρ c) (W2_v6 m ρ c) (W2_v14 m ρ c)
theorem W3_v30 : W3 m ρ c (Proc.devRef .tc main_v30) = shapeCast S1x64 (X3 m c) shapeCasts_S64_S1x64 :=
  pre2_v30 (W2 m ρ c) (X3 m c) (W2_arg3 m ρ c)
theorem W3_v31 : W3 m ρ c (Proc.devRef .tc main_v31) = shapeCast S1x64 (X5 m c) shapeCasts_S64_S1x64 :=
  pre2_v31 (W2 m ρ c) (X5 m c) (W2_arg5 m ρ c)
theorem W3_v32 : W3 m ρ c (Proc.devRef .tc main_v32) = shapeCast S1x1 (X7 m c) shapeCasts_S1_S1x1 :=
  pre2_v32 (W2 m ρ c) (X7 m c) (W2_arg7 m ρ c)
theorem W3_v3 : W3 m ρ c (Proc.devRef .tc main_v3) = val_main_v3 (F := Ideal) (X1 m c) :=
  (pre2_keep (W2 m ρ c) main_v3 (by decide)).trans (W2_v3 m ρ c)
theorem W3_v6 : W3 m ρ c (Proc.devRef .tc main_v6) = val_main_v6 (F := Ideal) (X1 m c) :=
  (pre2_keep (W2 m ρ c) main_v6 (by decide)).trans (W2_v6 m ρ c)
theorem W3_arg0 : W3 m ρ c (Proc.devRef .tc main_arg0) = (X0 m c) :=
  (pre2_keep (W2 m ρ c) main_arg0 (by decide)).trans (W2_arg0 m ρ c)
theorem W3_arg2 : W3 m ρ c (Proc.devRef .tc main_arg2) = (X2 m c) :=
  (pre2_keep (W2 m ρ c) main_arg2 (by decide)).trans (W2_arg2 m ρ c)
theorem W3_arg4 : W3 m ρ c (Proc.devRef .tc main_arg4) = (X4 m c) :=
  (pre2_keep (W2 m ρ c) main_arg4 (by decide)).trans (W2_arg4 m ρ c)
theorem W3_arg6 : W3 m ρ c (Proc.devRef .tc main_arg6) = (X6 m c) :=
  (pre2_keep (W2 m ρ c) main_arg6 (by decide)).trans (W2_arg6 m ρ c)

/-! ## After the first region: the first product -/

theorem W4_v33 : W4 m ρ c (Proc.devRef .tc main_v33) = val_main_v30 (F := Ideal) (X0 m c) (X2 m c) :=
  (W4_arr m ρ c 2).trans (region0_val (V3 m ρ) c (X0 m c) (X2 m c) (W3_arg0 m ρ c) (W3_arg2 m ρ c))
theorem W4_v3 : W4 m ρ c (Proc.devRef .tc main_v3) = val_main_v3 (F := Ideal) (X1 m c) :=
  (W4_of_ne m ρ c main_v3 (by decide)).trans (W3_v3 m ρ c)
theorem W4_v6 : W4 m ρ c (Proc.devRef .tc main_v6) = val_main_v6 (F := Ideal) (X1 m c) :=
  (W4_of_ne m ρ c main_v6 (by decide)).trans (W3_v6 m ρ c)
theorem W4_v29 : W4 m ρ c (Proc.devRef .tc main_v29) = val_main_v29 (F := Ideal) (X1 m c) :=
  (W4_of_ne m ρ c main_v29 (by decide)).trans (W3_v29 m ρ c)
theorem W4_v30 : W4 m ρ c (Proc.devRef .tc main_v30) = shapeCast S1x64 (X3 m c) shapeCasts_S64_S1x64 :=
  (W4_of_ne m ρ c main_v30 (by decide)).trans (W3_v30 m ρ c)
theorem W4_v31 : W4 m ρ c (Proc.devRef .tc main_v31) = shapeCast S1x64 (X5 m c) shapeCasts_S64_S1x64 :=
  (W4_of_ne m ρ c main_v31 (by decide)).trans (W3_v31 m ρ c)
theorem W4_v32 : W4 m ρ c (Proc.devRef .tc main_v32) = shapeCast S1x1 (X7 m c) shapeCasts_S1_S1x1 :=
  (W4_of_ne m ρ c main_v32 (by decide)).trans (W3_v32 m ρ c)
theorem W4_arg4 : W4 m ρ c (Proc.devRef .tc main_arg4) = (X4 m c) :=
  (W4_of_ne m ρ c main_arg4 (by decide)).trans (W3_arg4 m ρ c)
theorem W4_arg6 : W4 m ρ c (Proc.devRef .tc main_arg6) = (X6 m c) :=
  (W4_of_ne m ρ c main_arg6 (by decide)).trans (W3_arg6 m ρ c)

/-! ## After the first aggregation -/

theorem W5_v46 : W5 m ρ c (Proc.devRef .tc main_v46) = val_main_v43 (F := Ideal) (X0 m c) (X1 m c) (X2 m c) :=
  agg1_v46 (W4 m ρ c) (X0 m c) (X1 m c) (X2 m c) (W4_v3 m ρ c) (W4_v6 m ρ c) (W4_v29 m ρ c) (W4_v33 m ρ c)
theorem W5_v3 : W5 m ρ c (Proc.devRef .tc main_v3) = val_main_v3 (F := Ideal) (X1 m c) :=
  (agg1_keep (W4 m ρ c) main_v3 (by decide)).trans (W4_v3 m ρ c)
theorem W5_v6 : W5 m ρ c (Proc.devRef .tc main_v6) = val_main_v6 (F := Ideal) (X1 m c) :=
  (agg1_keep (W4 m ρ c) main_v6 (by decide)).trans (W4_v6 m ρ c)
theorem W5_v29 : W5 m ρ c (Proc.devRef .tc main_v29) = val_main_v29 (F := Ideal) (X1 m c) :=
  (agg1_keep (W4 m ρ c) main_v29 (by decide)).trans (W4_v29 m ρ c)
theorem W5_v30 : W5 m ρ c (Proc.devRef .tc main_v30) = shapeCast S1x64 (X3 m c) shapeCasts_S64_S1x64 :=
  (agg1_keep (W4 m ρ c) main_v30 (by decide)).trans (W4_v30 m ρ c)
theorem W5_v31 : W5 m ρ c (Proc.devRef .tc main_v31) = shapeCast S1x64 (X5 m c) shapeCasts_S64_S1x64 :=
  (agg1_keep (W4 m ρ c) main_v31 (by decide)).trans (W4_v31 m ρ c)
theorem W5_v32 : W5 m ρ c (Proc.devRef .tc main_v32) = shapeCast S1x1 (X7 m c) shapeCasts_S1_S1x1 :=
  (agg1_keep (W4 m ρ c) main_v32 (by decide)).trans (W4_v32 m ρ c)
theorem W5_arg4 : W5 m ρ c (Proc.devRef .tc main_arg4) = (X4 m c) :=
  (agg1_keep (W4 m ρ c) main_arg4 (by decide)).trans (W4_arg4 m ρ c)
theorem W5_arg6 : W5 m ρ c (Proc.devRef .tc main_arg6) = (X6 m c) :=
  (agg1_keep (W4 m ρ c) main_arg6 (by decide)).trans (W4_arg6 m ρ c)

/-! ## After the second region: the second product -/

theorem W6_v47 : W6 m ρ c (Proc.devRef .tc main_v47) = val_main_v48 (F := Ideal) (X0 m c) (X1 m c) (X2 m c) (X3 m c) (X4 m c) :=
  (W6_arr m ρ c 3).trans ((region1_val (V5 m ρ) c (val_main_v43 (F := Ideal) (X0 m c) (X1 m c) (X2 m c)) (X3 m c) (X4 m c) (W5_v46 m ρ c) (W5_v30 m ρ c) (W5_arg4 m ρ c)).trans (Cert.Layers.v48_eq (F := Ideal) (X0 m c) (X1 m c) (X2 m c) (X3 m c) (X4 m c)).symm)
theorem W6_v3 : W6 m ρ c (Proc.devRef .tc main_v3) = val_main_v3 (F := Ideal) (X1 m c) :=
  (W6_of_ne m ρ c main_v3 (by decide)).trans (W5_v3 m ρ c)
theorem W6_v6 : W6 m ρ c (Proc.devRef .tc main_v6) = val_main_v6 (F := Ideal) (X1 m c) :=
  (W6_of_ne m ρ c main_v6 (by decide)).trans (W5_v6 m ρ c)
theorem W6_v29 : W6 m ρ c (Proc.devRef .tc main_v29) = val_main_v29 (F := Ideal) (X1 m c) :=
  (W6_of_ne m ρ c main_v29 (by decide)).trans (W5_v29 m ρ c)
theorem W6_v31 : W6 m ρ c (Proc.devRef .tc main_v31) = shapeCast S1x64 (X5 m c) shapeCasts_S64_S1x64 :=
  (W6_of_ne m ρ c main_v31 (by decide)).trans (W5_v31 m ρ c)
theorem W6_v32 : W6 m ρ c (Proc.devRef .tc main_v32) = shapeCast S1x1 (X7 m c) shapeCasts_S1_S1x1 :=
  (W6_of_ne m ρ c main_v32 (by decide)).trans (W5_v32 m ρ c)
theorem W6_arg6 : W6 m ρ c (Proc.devRef .tc main_arg6) = (X6 m c) :=
  (W6_of_ne m ρ c main_arg6 (by decide)).trans (W5_arg6 m ρ c)

/-! ## After the second aggregation -/

theorem W7_v60 : W7 m ρ c (Proc.devRef .tc main_v60) = val_main_v61 (F := Ideal) (X0 m c) (X1 m c) (X2 m c) (X3 m c) (X4 m c) :=
  agg2_v60 (W6 m ρ c) (X0 m c) (X1 m c) (X2 m c) (X3 m c) (X4 m c) (W6_v3 m ρ c) (W6_v6 m ρ c) (W6_v29 m ρ c) (W6_v47 m ρ c)
theorem W7_v3 : W7 m ρ c (Proc.devRef .tc main_v3) = val_main_v3 (F := Ideal) (X1 m c) :=
  (agg2_keep (W6 m ρ c) main_v3 (by decide)).trans (W6_v3 m ρ c)
theorem W7_v6 : W7 m ρ c (Proc.devRef .tc main_v6) = val_main_v6 (F := Ideal) (X1 m c) :=
  (agg2_keep (W6 m ρ c) main_v6 (by decide)).trans (W6_v6 m ρ c)
theorem W7_v29 : W7 m ρ c (Proc.devRef .tc main_v29) = val_main_v29 (F := Ideal) (X1 m c) :=
  (agg2_keep (W6 m ρ c) main_v29 (by decide)).trans (W6_v29 m ρ c)
theorem W7_v31 : W7 m ρ c (Proc.devRef .tc main_v31) = shapeCast S1x64 (X5 m c) shapeCasts_S64_S1x64 :=
  (agg2_keep (W6 m ρ c) main_v31 (by decide)).trans (W6_v31 m ρ c)
theorem W7_v32 : W7 m ρ c (Proc.devRef .tc main_v32) = shapeCast S1x1 (X7 m c) shapeCasts_S1_S1x1 :=
  (agg2_keep (W6 m ρ c) main_v32 (by decide)).trans (W6_v32 m ρ c)
theorem W7_arg6 : W7 m ρ c (Proc.devRef .tc main_arg6) = (X6 m c) :=
  (agg2_keep (W6 m ρ c) main_arg6 (by decide)).trans (W6_arg6 m ρ c)

/-! ## After the third region: the third product -/

theorem W8_v61 : W8 m ρ c (Proc.devRef .tc main_v61) = val_main_v66 (F := Ideal) (X0 m c) (X1 m c) (X2 m c) (X3 m c) (X4 m c) (X5 m c) (X6 m c) :=
  (W8_arr m ρ c 3).trans ((region2_val (V7 m ρ) c (val_main_v61 (F := Ideal) (X0 m c) (X1 m c) (X2 m c) (X3 m c) (X4 m c)) (X5 m c) (X6 m c) (W7_v60 m ρ c) (W7_v31 m ρ c) (W7_arg6 m ρ c)).trans (Cert.Layers.v66_eq (F := Ideal) (X0 m c) (X1 m c) (X2 m c) (X3 m c) (X4 m c) (X5 m c) (X6 m c)).symm)
theorem W8_v3 : W8 m ρ c (Proc.devRef .tc main_v3) = val_main_v3 (F := Ideal) (X1 m c) :=
  (W8_of_ne m ρ c main_v3 (by decide)).trans (W7_v3 m ρ c)
theorem W8_v6 : W8 m ρ c (Proc.devRef .tc main_v6) = val_main_v6 (F := Ideal) (X1 m c) :=
  (W8_of_ne m ρ c main_v6 (by decide)).trans (W7_v6 m ρ c)
theorem W8_v29 : W8 m ρ c (Proc.devRef .tc main_v29) = val_main_v29 (F := Ideal) (X1 m c) :=
  (W8_of_ne m ρ c main_v29 (by decide)).trans (W7_v29 m ρ c)
theorem W8_v32 : W8 m ρ c (Proc.devRef .tc main_v32) = shapeCast S1x1 (X7 m c) shapeCasts_S1_S1x1 :=
  (W8_of_ne m ρ c main_v32 (by decide)).trans (W7_v32 m ρ c)

/-! ## After the third aggregation -/

theorem W9_v73 : W9 m ρ c (Proc.devRef .tc main_v73) = val_main_v78 (F := Ideal) (X0 m c) (X1 m c) (X2 m c) (X3 m c) (X4 m c) (X5 m c) (X6 m c) :=
  agg3_v73 (W8 m ρ c) (X0 m c) (X1 m c) (X2 m c) (X3 m c) (X4 m c) (X5 m c) (X6 m c) (W8_v3 m ρ c) (W8_v6 m ρ c) (W8_v29 m ρ c) (W8_v61 m ρ c)
theorem W9_v32 : W9 m ρ c (Proc.devRef .tc main_v32) = shapeCast S1x1 (X7 m c) shapeCasts_S1_S1x1 :=
  (agg3_keep (W8 m ρ c) main_v32 (by decide)).trans (W8_v32 m ρ c)

/-! ## After the last region and the final reshape: the result -/

theorem W10_v74 : W10 m ρ c (Proc.devRef .tc main_v74) = val_main_v87 (F := Ideal) (X0 m c) (X1 m c) (X2 m c) (X3 m c) (X4 m c) (X5 m c) (X6 m c) (X7 m c) :=
  (W10_arr m ρ c 2).trans ((region3_val (V9 m ρ) c (val_main_v78 (F := Ideal) (X0 m c) (X1 m c) (X2 m c) (X3 m c) (X4 m c) (X5 m c) (X6 m c)) (X7 m c) (W9_v73 m ρ c) (W9_v32 m ρ c)).trans (Cert.Layers.v87_eq (F := Ideal) (X0 m c) (X1 m c) (X2 m c) (X3 m c) (X4 m c) (X5 m c) (X6 m c) (X7 m c)).symm)
/-- The last boundary's contents at the result buffer: the reference's last stage of the argument arrays. -/
theorem result : W11 m ρ c (Proc.devRef .tc main_v75) = val_main_v88 (F := Ideal) (X0 m c) (X1 m c) (X2 m c) (X3 m c) (X4 m c) (X5 m c) (X6 m c) (X7 m c) :=
  tail_v75 (W10 m ρ c) (X0 m c) (X1 m c) (X2 m c) (X3 m c) (X4 m c) (X5 m c) (X6 m c) (X7 m c) (W10_v74 m ρ c)

end Cert.KernelIdeal.Chain

end
-- ==== Proof.lean ====
/-
  The idealized kernel and the idealized reference compute one function of the argument arrays.

  The network is three graph-convolution layers over 100000 nodes with a self loop added at every node: an edge's weight is
  `rsqrt deg[row] · rsqrt deg[col]` (zero where a degree is not positive), a layer maps the rows `h` to the sum over each
  node's incoming edges of the weighted rows of `h · W`, plus a bias, and the first two layers end in a rectifier, the last
  in the logistic function. The reference applies the dense part of each layer (the product, the bias, the rectifier, the
  logistic quotient) to whole arrays on the host; the kernel applies it in four pipelined regions, ten blocks of 10000 rows
  each, with the bias and rectifier of a layer fused into the next layer's product, and runs the edge normalisation, the
  gathers and the scatter-adds on the host exactly as the reference does. On the extended reals a change of float format
  is the identity, a block's matrix product is the sum over the contracted index that the whole product is at those rows,
  and the logistic function is the quotient `1 / (1 + exp (-z))`; so both results are the same stage of the same
  composition, index by index, with no use of finiteness.

  The kernel's frames are the generated frame certificate; its run with the result named is `Named.run_named`, the value
  at the last boundary `Chain.result`; the reference's run is `ValueP.run` and its last stage `ReadP.val_main_v88`.
-/
import proofs.«117944_j7052336300283_1_alg».proof.Defs
import proofs.«117944_j7052336300283_1_alg».proof.Proof.Gen.Kernel
import proofs.«117944_j7052336300283_1_alg».proof.Proof.Gen.Kernel.Skeleton
import proofs.«117944_j7052336300283_1_alg».proof.Proof.Gen.Kernel.Launch
import proofs.«117944_j7052336300283_1_alg».proof.Proof.Gen.Kernel.Points
import proofs.«117944_j7052336300283_1_alg».proof.Proof.Gen.Kernel.Frame
import proofs.«117944_j7052336300283_1_alg».proof.Proof.Gen.KernelIdeal
import proofs.«117944_j7052336300283_1_alg».proof.Proof.Gen.KernelIdeal.Skeleton
import proofs.«117944_j7052336300283_1_alg».proof.Proof.Gen.KernelIdeal.Launch
import proofs.«117944_j7052336300283_1_alg».proof.Proof.Gen.KernelIdeal.Points
import proofs.«117944_j7052336300283_1_alg».proof.Proof.Gen.KernelIdeal.Frame
import proofs.«117944_j7052336300283_1_alg».proof.Proof.Gen.ReferenceIdeal
import proofs.«117944_j7052336300283_1_alg».proof.Proof.Gen.Pre_finite_inputs
import proofs.«117944_j7052336300283_1_alg».proof.Proof.RefRun
import proofs.«117944_j7052336300283_1_alg».proof.Proof.RefRead
import proofs.«117944_j7052336300283_1_alg».proof.Proof.KRun
import proofs.«117944_j7052336300283_1_alg».proof.Proof.Chain
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing: the idealization is the kernel's own text read on the extended reals. -/
theorem preserves : Cert.preserves_Kernel_KernelIdeal := trivial

/-- From memories that agree on the arguments both programs end with the reference's last stage of those arguments in
    their result buffer. -/
theorem algebraic : Cert.algebraic_KernelIdeal_ReferenceIdeal := by
  intro m ρ m' ρ' _ hagree
  refine ⟨fun c => Cert.ReferenceIdeal.ReadP.val_main_v88 (F := Ideal) (Cert.KernelIdeal.Chain.X0 m c) (Cert.KernelIdeal.Chain.X1 m c) (Cert.KernelIdeal.Chain.X2 m c) (Cert.KernelIdeal.Chain.X3 m c) (Cert.KernelIdeal.Chain.X4 m c) (Cert.KernelIdeal.Chain.X5 m c) (Cert.KernelIdeal.Chain.X6 m c) (Cert.KernelIdeal.Chain.X7 m c), ?_, ?_⟩
  · exact (θ_run Cert.KernelIdeal.defs _ _).mono
      (fun r h c => ⟨(h c).1.trans (Cert.KernelIdeal.Chain.result m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v88_eq, (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
